-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v136_0)) (v1 : (c : Dev Cert.KernelIdeal.nD) → Buf (Elt Ideal) ((c.tc : Thread Cert.KernelIdeal.nD Cert.KernelIdeal.τ).loc Cert.KernelIdeal.main_v136_1)) (v2 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136_0) = v0 c
          ∧ r.2.mem ((c.tc : Thread Cert.KernelIdeal.nD Cert.KernelIdeal.τ).loc Cert.KernelIdeal.main_v136_1) = v1 c
          ∧ r.2.mem ((c.tc : Thread Cert.KernelIdeal.nD Cert.KernelIdeal.τ).loc Cert.KernelIdeal.main_v141) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v142) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2000000 : Shape := ⟨1, ![2000000]⟩
abbrev S4096 : Shape := ⟨1, ![4096]⟩
abbrev S4096x50 : Shape := ⟨2, ![4096, 50]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : FVec F S100000x64 .f32) (main_arg1 : FVec F S50000x64 .f32) (main_arg2 : IVec S2000000 32) (main_arg3 : IVec S2000000 32) (main_arg4 : IVec S4096 32) (main_arg5 : IVec S4096 32) (main_arg6 : IVec S4096x50 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  main_v8
-- ==== Kernel.lean ====
abbrev S100000x64 : Shape := ⟨2, ![100000, 64]⟩
abbrev S50000x64 : Shape := ⟨2, ![50000, 64]⟩
abbrev S2000000 : Shape := ⟨1, ![2000000]⟩
abbrev S4096 : Shape := ⟨1, ![4096]⟩
abbrev S4096x50 : Shape := ⟨2, ![4096, 50]⟩
abbrev S_ : Shape := ⟨0, ![]⟩
abbrev S100000 : Shape := ⟨1, ![100000]⟩
abbrev S2000000x1 : Shape := ⟨2, ![2000000, 1]⟩
abbrev S50000 : Shape := ⟨1, ![50000]⟩
abbrev S2000000x64 : Shape := ⟨2, ![2000000, 64]⟩
abbrev S4096x1 : Shape := ⟨2, ![4096, 1]⟩
abbrev S4096x64 : Shape := ⟨2, ![4096, 64]⟩
abbrev S4096x50x1 : Shape := ⟨3, ![4096, 50, 1]⟩
abbrev S4096x50x64 : Shape := ⟨3, ![4096, 50, 64]⟩
abbrev S16x8x128 : Shape := ⟨3, ![16, 8, 128]⟩
abbrev S256x64 : Shape := ⟨2, ![256, 64]⟩
abbrev S256x50x64 : Shape := ⟨3, ![256, 50, 64]⟩
abbrev S256x1 : Shape := ⟨2, ![256, 1]⟩
abbrev S256x50 : Shape := ⟨2, ![256, 50]⟩
abbrev S1x8x128 : Shape := ⟨3, ![1, 8, 128]⟩
abbrev S256 : Shape := ⟨1, ![256]⟩
abbrev S1 : Shape := ⟨1, ![1]⟩
abbrev S1x1 : Shape := ⟨2, ![1, 1]⟩
abbrev S256x10x64 : Shape := ⟨3, ![256, 10, 64]⟩
abbrev S256x1x64 : Shape := ⟨3, ![256, 1, 64]⟩
abbrev S256x10 : Shape := ⟨2, ![256, 10]⟩
abbrev S1x1x1 : Shape := ⟨3, ![1, 1, 1]⟩
abbrev S16x1x1 : Shape := ⟨3, ![16, 1, 1]⟩
abbrev S16 : Shape := ⟨1, ![16]⟩

abbrev nBuf : Space → Nat
  | .hbm => 189
  | .vmem => 12
  | .smem => 0
  | _ => 0

abbrev hbmTy0_0 (i : Nat) : BufTy := match i % 128 with
  | 0 => ⟨S100000x64, .f32⟩
  | 1 => ⟨S50000x64, .f32⟩
  | 2 => ⟨S2000000, .i32⟩
  | 3 => ⟨S2000000, .i32⟩
  | 4 => ⟨S4096, .i32⟩
  | 5 => ⟨S4096, .i32⟩
  | 6 => ⟨S4096x50, .i32⟩
  | 7 => ⟨S_, .f32⟩
  | 8 => ⟨S2000000, .f32⟩
  | 9 => ⟨S_, .f32⟩
  | 10 => ⟨S100000, .f32⟩
  | 11 => ⟨S2000000x1, .i32⟩
  | 12 => ⟨S100000, .f32⟩
  | 13 => ⟨S_, .f32⟩
  | 14 => ⟨S50000, .f32⟩
  | 15 => ⟨S2000000x1, .i32⟩
  | 16 => ⟨S50000, .f32⟩
  | 17 => ⟨S_, .f32⟩
  | 18 => ⟨S100000, .f32⟩
  | 19 => ⟨S100000, .f32⟩
  | 20 => ⟨S_, .f32⟩
  | 21 => ⟨S50000, .f32⟩
  | 22 => ⟨S50000, .f32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000, .f32⟩
  | 32 => ⟨S_, .i32⟩
  | 33 => ⟨S2000000, .i32⟩
  | 34 => ⟨S2000000, .i1⟩
  | 35 => ⟨S_, .i32⟩
  | 36 => ⟨S2000000, .i32⟩
  | 37 => ⟨S2000000, .i32⟩
  | 38 => ⟨S2000000, .i32⟩
  | 39 => ⟨S2000000x1, .i32⟩
  | 40 => ⟨S2000000, .f32⟩
  | 41 => ⟨S2000000, .f32⟩
  | 42 => ⟨S2000000, .f32⟩
  | 43 => ⟨S_, .i32⟩
  | 44 => ⟨S2000000, .i32⟩
  | 45 => ⟨S2000000, .i1⟩
  | 46 => ⟨S_, .i32⟩
  | 47 => ⟨S2000000, .i32⟩
  | 48 => ⟨S2000000, .i32⟩
  | 49 => ⟨S2000000, .i32⟩
  | 50 => ⟨S2000000x1, .i32⟩
  | 51 => ⟨S2000000x64, .f32⟩
  | 52 => ⟨S2000000x1, .f32⟩
  | 53 => ⟨S2000000x64, .f32⟩
  | 54 => ⟨S2000000x64, .f32⟩
  | 55 => ⟨S_, .f32⟩
  | 56 => ⟨S100000x64, .f32⟩
  | 57 => ⟨S2000000x1, .i32⟩
  | 58 => ⟨S100000x64, .f32⟩
  | 59 => ⟨S_, .i32⟩
  | 60 => ⟨S2000000, .i32⟩
  | 61 => ⟨S2000000, .i1⟩
  | 62 => ⟨S_, .i32⟩
  | 63 => ⟨S2000000, .i32⟩
  | 64 => ⟨S2000000, .i32⟩
  | 65 => ⟨S2000000, .i32⟩
  | 66 => ⟨S2000000x1, .i32⟩
  | 67 => ⟨S2000000x64, .f32⟩
  | 68 => ⟨S2000000x1, .f32⟩
  | 69 => ⟨S2000000x64, .f32⟩
  | 70 => ⟨S2000000x64, .f32⟩
  | 71 => ⟨S_, .f32⟩
  | 72 => ⟨S50000x64, .f32⟩
  | 73 => ⟨S2000000x1, .i32⟩
  | 74 => ⟨S50000x64, .f32⟩
  | 75 => ⟨S100000x64, .f32⟩
  | 76 => ⟨S50000x64, .f32⟩
  | 77 => ⟨S_, .i32⟩
  | 78 => ⟨S2000000, .i32⟩
  | 79 => ⟨S2000000, .i1⟩
  | 80 => ⟨S_, .i32⟩
  | 81 => ⟨S2000000, .i32⟩
  | 82 => ⟨S2000000, .i32⟩
  | 83 => ⟨S2000000, .i32⟩
  | 84 => ⟨S2000000x1, .i32⟩
  | 85 => ⟨S2000000x64, .f32⟩
  | 86 => ⟨S2000000x1, .f32⟩
  | 87 => ⟨S2000000x64, .f32⟩
  | 88 => ⟨S2000000x64, .f32⟩
  | 89 => ⟨S_, .f32⟩
  | 90 => ⟨S100000x64, .f32⟩
  | 91 => ⟨S2000000x1, .i32⟩
  | 92 => ⟨S100000x64, .f32⟩
  | 93 => ⟨S_, .i32⟩
  | 94 => ⟨S2000000, .i32⟩
  | 95 => ⟨S2000000, .i1⟩
  | 96 => ⟨S_, .i32⟩
  | 97 => ⟨S2000000, .i32⟩
  | 98 => ⟨S2000000, .i32⟩
  | 99 => ⟨S2000000, .i32⟩
  | 100 => ⟨S2000000x1, .i32⟩
  | 101 => ⟨S2000000x64, .f32⟩
  | 102 => ⟨S2000000x1, .f32⟩
  | 103 => ⟨S2000000x64, .f32⟩
  | 104 => ⟨S2000000x64, .f32⟩
  | 105 => ⟨S_, .f32⟩
  | 106 => ⟨S50000x64, .f32⟩
  | 107 => ⟨S2000000x1, .i32⟩
  | 108 => ⟨S50000x64, .f32⟩
  | 109 => ⟨S100000x64, .f32⟩
  | 110 => ⟨S50000x64, .f32⟩
  | 111 => ⟨S_, .i32⟩
  | 112 => ⟨S2000000, .i32⟩
  | 113 => ⟨S2000000, .i1⟩
  | 114 => ⟨S_, .i32⟩
  | 115 => ⟨S2000000, .i32⟩
  | 116 => ⟨S2000000, .i32⟩
  | 117 => ⟨S2000000, .i32⟩
  | 118 => ⟨S2000000x1, .i32⟩
  | 119 => ⟨S2000000x64, .f32⟩
  | 120 => ⟨S2000000x1, .f32⟩
  | 121 => ⟨S2000000x64, .f32⟩
  | 122 => ⟨S2000000x64, .f32⟩
  | 123 => ⟨S_, .f32⟩
  | 124 => ⟨S100000x64, .f32⟩
  | 125 => ⟨S2000000x1, .i32⟩
  | 126 => ⟨S100000x64, .f32⟩
  | 127 => ⟨S_, .i32⟩
  | _ => ⟨S100000x64, .f32⟩

abbrev hbmTy0_1 (i : Nat) : BufTy := match i % 128 with
  | 0 => ⟨S2000000, .i32⟩
  | 1 => ⟨S2000000, .i1⟩
  | 2 => ⟨S_, .i32⟩
  | 3 => ⟨S2000000, .i32⟩
  | 4 => ⟨S2000000, .i32⟩
  | 5 => ⟨S2000000, .i32⟩
  | 6 => ⟨S2000000x1, .i32⟩
  | 7 => ⟨S2000000x64, .f32⟩
  | 8 => ⟨S2000000x1, .f32⟩
  | 9 => ⟨S2000000x64, .f32⟩
  | 10 => ⟨S2000000x64, .f32⟩
  | 11 => ⟨S_, .f32⟩
  | 12 => ⟨S50000x64, .f32⟩
  | 13 => ⟨S2000000x1, .i32⟩
  | 14 => ⟨S50000x64, .f32⟩
  | 15 => ⟨S100000x64, .f32⟩
  | 16 => ⟨S50000x64, .f32⟩
  | 17 => ⟨S_, .f32⟩
  | 18 => ⟨S100000x64, .f32⟩
  | 19 => ⟨S100000x64, .f32⟩
  | 20 => ⟨S_, .f32⟩
  | 21 => ⟨S50000x64, .f32⟩
  | 22 => ⟨S50000x64, .f32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S4096x64, .f32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096x64, .f32⟩
  | 41 => ⟨S_, .i32⟩
  | 42 => ⟨S4096x50, .i32⟩
  | 43 => ⟨S4096x50, .i1⟩
  | 44 => ⟨S_, .i32⟩
  | 45 => ⟨S4096x50, .i32⟩
  | 46 => ⟨S4096x50, .i32⟩
  | 47 => ⟨S4096x50, .i32⟩
  | 48 => ⟨S4096x50x1, .i32⟩
  | 49 => ⟨S4096x50x64, .f32⟩
  | 50 => ⟨S4096x1, .f32⟩
  | 51 => ⟨S4096x50, .f32⟩
  | 52 => ⟨S16x8x128, .f32⟩
  | 53 => ⟨S16x1x1, .f32⟩
  | 54 => ⟨S16, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S256x50x64, .f32⟩
  | .local _ .vmem, ⟨5, _⟩ => ⟨S256x50x64, .f32⟩
  | .local _ .vmem, ⟨6, _⟩ => ⟨S256x1, .f32⟩
  | .local _ .vmem, ⟨7, _⟩ => ⟨S256x1, .f32⟩
  | .local _ .vmem, ⟨8, _⟩ => ⟨S256x50, .f32⟩
  | .local _ .vmem, ⟨9, _⟩ => ⟨S256x50, .f32⟩
  | .local _ .vmem, ⟨10, _⟩ => ⟨S1x8x128, .f32⟩
  | .local _ .vmem, ⟨11, _⟩ => ⟨S1x8x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_v40 : Ref sig .tc := ⟨.hbm, 60, rfl⟩
abbrev main_v41 : Ref sig .tc := ⟨.hbm, 61, rfl⟩
abbrev main_c_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_13 : Ref sig .tc := ⟨.hbm, 77, rfl⟩
abbrev main_v55 : Ref sig .tc := ⟨.hbm, 78, rfl⟩
abbrev main_v56 : Ref sig .tc := ⟨.hbm, 79, rfl⟩
abbrev main_c_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_16 : Ref sig .tc := ⟨.hbm, 93, rfl⟩
abbrev main_v68 : Ref sig .tc := ⟨.hbm, 94, rfl⟩
abbrev main_v69 : Ref sig .tc := ⟨.hbm, 95, rfl⟩
abbrev main_c_17 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_18 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_19 : Ref sig .tc := ⟨.hbm, 111, rfl⟩
abbrev main_v83 : Ref sig .tc := ⟨.hbm, 112, rfl⟩
abbrev main_v84 : Ref sig .tc := ⟨.hbm, 113, rfl⟩
abbrev main_c_20 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_21 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_22 : Ref sig .tc := ⟨.hbm, 127, rfl⟩
abbrev main_v96 : Ref sig .tc := ⟨.hbm, 128, rfl⟩
abbrev main_v97 : Ref sig .tc := ⟨.hbm, 129, rfl⟩
abbrev main_c_23 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_24 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_25 : Ref sig .tc := ⟨.hbm, 145, rfl⟩
abbrev main_v111 : Ref sig .tc := ⟨.hbm, 146, rfl⟩
abbrev main_v112 : Ref sig .tc := ⟨.hbm, 147, rfl⟩
abbrev main_cst_26 : Ref sig .tc := ⟨.hbm, 148, rfl⟩
abbrev main_v113 : Ref sig .tc := ⟨.hbm, 149, rfl⟩
abbrev main_v114 : Ref sig .tc := ⟨.hbm, 150, rfl⟩
abbrev main_c_27 : Ref sig .tc := ⟨.hbm, 151, rfl⟩
abbrev main_v115 : Ref sig .tc := ⟨.hbm, 152, rfl⟩
abbrev main_v116 : Ref sig .tc := ⟨.hbm, 153, rfl⟩
abbrev main_c_28 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_c_29 : Ref sig .tc := ⟨.hbm, 160, rfl⟩
abbrev main_v122 : Ref sig .tc := ⟨.hbm, 161, rfl⟩
abbrev main_v123 : Ref sig .tc := ⟨.hbm, 162, rfl⟩
abbrev main_c_30 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_c_31 : Ref sig .tc := ⟨.hbm, 169, rfl⟩
abbrev main_v129 : Ref sig .tc := ⟨.hbm, 170, rfl⟩
abbrev main_v130 : Ref sig .tc := ⟨.hbm, 171, rfl⟩
abbrev main_c_32 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136_0 : Ref sig .tc := ⟨.hbm, 178, rfl⟩
abbrev main_v136_1 : Ref sig .tc := ⟨.hbm, 179, rfl⟩
abbrev main_v136_2 : Ref sig .tc := ⟨.hbm, 180, rfl⟩
abbrev main_v137 : Ref sig .tc := ⟨.hbm, 181, rfl⟩
abbrev main_v138 : Ref sig .tc := ⟨.hbm, 182, rfl⟩
abbrev main_cst_33 : Ref sig .tc := ⟨.hbm, 183, rfl⟩
abbrev main_v139 : Ref sig .tc := ⟨.hbm, 184, rfl⟩
abbrev main_cst_34 : Ref sig .tc := ⟨.hbm, 185, rfl⟩
abbrev main_v140 : Ref sig .tc := ⟨.hbm, 186, rfl⟩
abbrev main_cst_35 : Ref sig .tc := ⟨.hbm, 187, rfl⟩
abbrev main_v141 : Ref sig .tc := ⟨.hbm, 188, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x50x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x50 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S2000000 : S_.BroadcastsInDim S2000000 (![] : Fin 0 → Fin S2000000.rank)
  bcast_S_S100000 : S_.BroadcastsInDim S100000 (![] : Fin 0 → Fin S100000.rank)
  bcast_S2000000_S2000000x1_0 : S2000000.BroadcastsInDim S2000000x1 (![0] : Fin 1 → Fin S2000000x1.rank)
  bcast_S_S50000 : S_.BroadcastsInDim S50000 (![] : Fin 0 → Fin S50000.rank)
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  bcast_S_S50000x64 : S_.BroadcastsInDim S50000x64 (![] : Fin 0 → Fin S50000x64.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  inb_S256x64_S256x64_0_0 : ∀ a, (![0, 0] : Fin 2 → Nat) a + S256x64.size a ≤ S256x64.size a
  h_S256x64 : 0 < S256x64.numel
  shapeCasts_S256x64_S256x64 : S256x64.ShapeCasts S256x64
  reduces_S256x64_S256 : S256x64.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reduces_S256x1_S1 : S256x1.Reduces [0] S1
  shapeCasts_S1_S1x1 : S1.ShapeCasts S1x1
  inb_S256x50x64_S256x10x64_0_0_0 : ∀ a, (![0, 0, 0] : Fin 3 → Nat) a + S256x10x64.size a ≤ S256x50x64.size a
  h_S256x10x64 : 0 < S256x10x64.numel
  shapeCasts_S256x10x64_S256x10x64 : S256x10x64.ShapeCasts S256x10x64
  shapeCasts_S256x64_S256x1x64 : S256x64.ShapeCasts S256x1x64
  shapeCasts_S256x1x64_S256x1x64 : S256x1x64.ShapeCasts S256x1x64
  broadcasts_S256x1x64_S256x10x64 : S256x1x64.Broadcasts S256x10x64
  reduces_S256x10x64_S256x10 : S256x10x64.Reduces [2] S256x10
  inb_S256x50_S256x10_0_0 : ∀ a, (![0, 0] : Fin 2 → Nat) a + S256x10.size a ≤ S256x50.size a
  h_S256x10 : 0 < S256x10.numel
  reduces_S256x10_S256 : S256x10.Reduces [1] S256
  inb_S256x50x64_S256x10x64_0_10_0 : ∀ a, (![0, 10, 0] : Fin 3 → Nat) a + S256x10x64.size a ≤ S256x50x64.size a
  inb_S256x50_S256x10_0_10 : ∀ a, (![0, 10] : Fin 2 → Nat) a + S256x10.size a ≤ S256x50.size a
  inb_S256x50x64_S256x10x64_0_20_0 : ∀ a, (![0, 20, 0] : Fin 3 → Nat) a + S256x10x64.size a ≤ S256x50x64.size a
  inb_S256x50_S256x10_0_20 : ∀ a, (![0, 20] : Fin 2 → Nat) a + S256x10.size a ≤ S256x50.size a
  inb_S256x50x64_S256x10x64_0_30_0 : ∀ a, (![0, 30, 0] : Fin 3 → Nat) a + S256x10x64.size a ≤ S256x50x64.size a
  inb_S256x50_S256x10_0_30 : ∀ a, (![0, 30] : Fin 2 → Nat) a + S256x10.size a ≤ S256x50.size a
  inb_S256x50x64_S256x10x64_0_40_0 : ∀ a, (![0, 40, 0] : Fin 3 → Nat) a + S256x10x64.size a ≤ S256x50x64.size a
  inb_S256x50_S256x10_0_40 : ∀ a, (![0, 40] : Fin 2 → Nat) a + S256x10.size a ≤ S256x50.size a
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  scatter_S100000_S2000000x1_S2000000_n_0_0_1_wf : ScatterDims.WF S100000 S2000000x1 S2000000 [] [0] [0] 1
  scatter_S50000_S2000000x1_S2000000_n_0_0_1_wf : ScatterDims.WF S50000 S2000000x1 S2000000 [] [0] [0] 1
  gather_S100000_S2000000x1_S2000000_n_0_n_n_0_1_1_wf : GatherDims.WF S100000 S2000000x1 S2000000 [] [0] [] [0] [] 1 ![1]
  gather_S50000_S2000000x1_S2000000_n_0_n_n_0_1_1_wf : GatherDims.WF S50000 S2000000x1 S2000000 [] [0] [] [0] [] 1 ![1]
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]
  gather_S50000x64_S4096x50x1_S4096x50x64_2_0_n_n_0_2_164_wf : GatherDims.WF S50000x64 S4096x50x1 S4096x50x64 [2] [0] [] [0] [] 2 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S4096x64.size a
  hwx0_0 : ∀ i : grid0.Coords, EltTy.bits .f32 = 32 ∨ (Rect.block (s := S4096x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S4096x64.size a
  hwx0_1 : ∀ i : grid0.Coords, EltTy.bits .f32 = 32 ∨ (Rect.block (s := S4096x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x50x64.size a ≤ S4096x50x64.size a
  hwx0_2 : ∀ i : grid0.Coords, EltTy.bits .f32 = 32 ∨ (Rect.block (s := S4096x50x64) S256x50x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x50.size a ≤ S4096x50.size a
  hwx0_4 : ∀ i : grid0.Coords, EltTy.bits .f32 = 32 ∨ (Rect.block (s := S4096x50) S256x50.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S16x8x128.size a
  hwx0_5 : ∀ i : grid0.Coords, EltTy.bits .f32 = 32 ∨ (Rect.block (s := S16x8x128) S1x8x128.size (cc0_transform_5 i) (hinb0_5 i)).WholeWords (EltTy.packing .f32)

variable [Facts₀]

def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def gather_S50000_S2000000x1_S2000000_n_0_n_n_0_1_1 : GatherDims S50000 S2000000x1 S2000000 where
  offsetDims := []
  collapsedSliceDims := [0]
  operandBatchingDims := []
  startIndicesBatchingDims := []
  startIndexMap := [0]
  indexVectorDim := 1
  sliceSizes := ![1]
  wf := gather_S50000_S2000000x1_S2000000_n_0_n_n_0_1_1_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf
def gather_S50000x64_S4096x50x1_S4096x50x64_2_0_n_n_0_2_164 : GatherDims S50000x64 S4096x50x1 S4096x50x64 where
  offsetDims := [2]
  collapsedSliceDims := [0]
  operandBatchingDims := []
  startIndicesBatchingDims := []
  startIndexMap := [0]
  indexVectorDim := 2
  sliceSizes := ![1, 64]
  wf := gather_S50000x64_S4096x50x1_S4096x50x64_2_0_n_n_0_2_164_wf

abbrev win0_0 : Pipeline.Window sig grid0 :=
  Pipeline.Window.ofSpec (Memref.whole main_v121) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v128) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v135) S256x50x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v136_0) S256x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v136_1) S256x50.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v136_2) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S2000000 : Shape := ⟨1, ![2000000]⟩
abbrev S4096 : Shape := ⟨1, ![4096]⟩
abbrev S4096x50 : Shape := ⟨2, ![4096, 50]⟩
abbrev S_ : Shape := ⟨0, ![]⟩
abbrev S100000 : Shape := ⟨1, ![100000]⟩
abbrev S2000000x1 : Shape := ⟨2, ![2000000, 1]⟩
abbrev S50000 : Shape := ⟨1, ![50000]⟩
abbrev S2000000x64 : Shape := ⟨2, ![2000000, 64]⟩
abbrev S4096x1 : Shape := ⟨2, ![4096, 1]⟩
abbrev S4096x64 : Shape := ⟨2, ![4096, 64]⟩
abbrev S4096x50x1 : Shape := ⟨3, ![4096, 50, 1]⟩
abbrev S4096x50x64 : Shape := ⟨3, ![4096, 50, 64]⟩
abbrev S4096x1x64 : Shape := ⟨3, ![4096, 1, 64]⟩

abbrev nBuf : Space → Nat
  | .hbm => 202
  | .vmem => 0
  | .smem => 0
  | _ => 0

abbrev hbmTy0_0 (i : Nat) : BufTy := match i % 128 with
  | 0 => ⟨S100000x64, .f32⟩
  | 1 => ⟨S50000x64, .f32⟩
  | 2 => ⟨S2000000, .i32⟩
  | 3 => ⟨S2000000, .i32⟩
  | 4 => ⟨S4096, .i32⟩
  | 5 => ⟨S4096, .i32⟩
  | 6 => ⟨S4096x50, .i32⟩
  | 7 => ⟨S_, .f32⟩
  | 8 => ⟨S2000000, .f32⟩
  | 9 => ⟨S_, .f32⟩
  | 10 => ⟨S100000, .f32⟩
  | 11 => ⟨S2000000x1, .i32⟩
  | 12 => ⟨S100000, .f32⟩
  | 13 => ⟨S_, .f32⟩
  | 14 => ⟨S50000, .f32⟩
  | 15 => ⟨S2000000x1, .i32⟩
  | 16 => ⟨S50000, .f32⟩
  | 17 => ⟨S_, .f32⟩
  | 18 => ⟨S100000, .f32⟩
  | 19 => ⟨S100000, .f32⟩
  | 20 => ⟨S_, .f32⟩
  | 21 => ⟨S50000, .f32⟩
  | 22 => ⟨S50000, .f32⟩
  | 23 => ⟨S_, .i32⟩
  | 24 => ⟨S2000000, .i32⟩
  | 25 => ⟨S2000000, .i1⟩
  | 26 => ⟨S_, .i32⟩
  | 27 => ⟨S2000000, .i32⟩
  | 28 => ⟨S2000000, .i32⟩
  | 29 => ⟨S2000000, .i32⟩
  | 30 => ⟨S2000000x1, .i32⟩
  | 31 => ⟨S2000000, .f32⟩
  | 32 => ⟨S_, .i32⟩
  | 33 => ⟨S2000000, .i32⟩
  | 34 => ⟨S2000000, .i1⟩
  | 35 => ⟨S_, .i32⟩
  | 36 => ⟨S2000000, .i32⟩
  | 37 => ⟨S2000000, .i32⟩
  | 38 => ⟨S2000000, .i32⟩
  | 39 => ⟨S2000000x1, .i32⟩
  | 40 => ⟨S2000000, .f32⟩
  | 41 => ⟨S2000000, .f32⟩
  | 42 => ⟨S2000000, .f32⟩
  | 43 => ⟨S_, .i32⟩
  | 44 => ⟨S2000000, .i32⟩
  | 45 => ⟨S2000000, .i1⟩
  | 46 => ⟨S_, .i32⟩
  | 47 => ⟨S2000000, .i32⟩
  | 48 => ⟨S2000000, .i32⟩
  | 49 => ⟨S2000000, .i32⟩
  | 50 => ⟨S2000000x1, .i32⟩
  | 51 => ⟨S2000000x64, .f32⟩
  | 52 => ⟨S2000000x1, .f32⟩
  | 53 => ⟨S2000000x64, .f32⟩
  | 54 => ⟨S2000000x64, .f32⟩
  | 55 => ⟨S_, .f32⟩
  | 56 => ⟨S100000x64, .f32⟩
  | 57 => ⟨S2000000x1, .i32⟩
  | 58 => ⟨S100000x64, .f32⟩
  | 59 => ⟨S_, .i32⟩
  | 60 => ⟨S2000000, .i32⟩
  | 61 => ⟨S2000000, .i1⟩
  | 62 => ⟨S_, .i32⟩
  | 63 => ⟨S2000000, .i32⟩
  | 64 => ⟨S2000000, .i32⟩
  | 65 => ⟨S2000000, .i32⟩
  | 66 => ⟨S2000000x1, .i32⟩
  | 67 => ⟨S2000000x64, .f32⟩
  | 68 => ⟨S2000000x1, .f32⟩
  | 69 => ⟨S2000000x64, .f32⟩
  | 70 => ⟨S2000000x64, .f32⟩
  | 71 => ⟨S_, .f32⟩
  | 72 => ⟨S50000x64, .f32⟩
  | 73 => ⟨S2000000x1, .i32⟩
  | 74 => ⟨S50000x64, .f32⟩
  | 75 => ⟨S100000x64, .f32⟩
  | 76 => ⟨S50000x64, .f32⟩
  | 77 => ⟨S_, .i32⟩
  | 78 => ⟨S2000000, .i32⟩
  | 79 => ⟨S2000000, .i1⟩
  | 80 => ⟨S_, .i32⟩
  | 81 => ⟨S2000000, .i32⟩
  | 82 => ⟨S2000000, .i32⟩
  | 83 => ⟨S2000000, .i32⟩
  | 84 => ⟨S2000000x1, .i32⟩
  | 85 => ⟨S2000000x64, .f32⟩
  | 86 => ⟨S2000000x1, .f32⟩
  | 87 => ⟨S2000000x64, .f32⟩
  | 88 => ⟨S2000000x64, .f32⟩
  | 89 => ⟨S_, .f32⟩
  | 90 => ⟨S100000x64, .f32⟩
  | 91 => ⟨S2000000x1, .i32⟩
  | 92 => ⟨S100000x64, .f32⟩
  | 93 => ⟨S_, .i32⟩
  | 94 => ⟨S2000000, .i32⟩
  | 95 => ⟨S2000000, .i1⟩
  | 96 => ⟨S_, .i32⟩
  | 97 => ⟨S2000000, .i32⟩
  | 98 => ⟨S2000000, .i32⟩
  | 99 => ⟨S2000000, .i32⟩
  | 100 => ⟨S2000000x1, .i32⟩
  | 101 => ⟨S2000000x64, .f32⟩
  | 102 => ⟨S2000000x1, .f32⟩
  | 103 => ⟨S2000000x64, .f32⟩
  | 104 => ⟨S2000000x64, .f32⟩
  | 105 => ⟨S_, .f32⟩
  | 106 => ⟨S50000x64, .f32⟩
  | 107 => ⟨S2000000x1, .i32⟩
  | 108 => ⟨S50000x64, .f32⟩
  | 109 => ⟨S100000x64, .f32⟩
  | 110 => ⟨S50000x64, .f32⟩
  | 111 => ⟨S_, .i32⟩
  | 112 => ⟨S2000000, .i32⟩
  | 113 => ⟨S2000000, .i1⟩
  | 114 => ⟨S_, .i32⟩
  | 115 => ⟨S2000000, .i32⟩
  | 116 => ⟨S2000000, .i32⟩
  | 117 => ⟨S2000000, .i32⟩
  | 118 => ⟨S2000000x1, .i32⟩
  | 119 => ⟨S2000000x64, .f32⟩
  | 120 => ⟨S2000000x1, .f32⟩
  | 121 => ⟨S2000000x64, .f32⟩
  | 122 => ⟨S2000000x64, .f32⟩
  | 123 => ⟨S_, .f32⟩
  | 124 => ⟨S100000x64, .f32⟩
  | 125 => ⟨S2000000x1, .i32⟩
  | 126 => ⟨S100000x64, .f32⟩
  | 127 => ⟨S_, .i32⟩
  | _ => ⟨S100000x64, .f32⟩

abbrev hbmTy0_1 (i : Nat) : BufTy := match i % 128 with
  | 0 => ⟨S2000000, .i32⟩
  | 1 => ⟨S2000000, .i1⟩
  | 2 => ⟨S_, .i32⟩
  | 3 => ⟨S2000000, .i32⟩
  | 4 => ⟨S2000000, .i32⟩
  | 5 => ⟨S2000000, .i32⟩
  | 6 => ⟨S2000000x1, .i32⟩
  | 7 => ⟨S2000000x64, .f32⟩
  | 8 => ⟨S2000000x1, .f32⟩
  | 9 => ⟨S2000000x64, .f32⟩
  | 10 => ⟨S2000000x64, .f32⟩
  | 11 => ⟨S_, .f32⟩
  | 12 => ⟨S50000x64, .f32⟩
  | 13 => ⟨S2000000x1, .i32⟩
  | 14 => ⟨S50000x64, .f32⟩
  | 15 => ⟨S100000x64, .f32⟩
  | 16 => ⟨S50000x64, .f32⟩
  | 17 => ⟨S_, .f32⟩
  | 18 => ⟨S100000x64, .f32⟩
  | 19 => ⟨S100000x64, .f32⟩
  | 20 => ⟨S_, .f32⟩
  | 21 => ⟨S50000x64, .f32⟩
  | 22 => ⟨S50000x64, .f32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S4096x64, .f32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096x64, .f32⟩
  | 41 => ⟨S_, .i32⟩
  | 42 => ⟨S4096x50, .i32⟩
  | 43 => ⟨S4096x50, .i1⟩
  | 44 => ⟨S_, .i32⟩
  | 45 => ⟨S4096x50, .i32⟩
  | 46 => ⟨S4096x50, .i32⟩
  | 47 => ⟨S4096x50, .i32⟩
  | 48 => ⟨S4096x50x1, .i32⟩
  | 49 => ⟨S4096x50x64, .f32⟩
  | 50 => ⟨S4096x64, .f32⟩
  | 51 => ⟨S_, .f32⟩
  | 52 => ⟨S4096, .f32⟩
  | 53 => ⟨S4096x1, .f32⟩
  | 54 => ⟨S4096x1x64, .f32⟩
  | 55 => ⟨S4096x50x64, .f32⟩
  | 56 => ⟨S4096x50x64, .f32⟩
  | 57 => ⟨S_, .f32⟩
  | 58 => ⟨S4096x50, .f32⟩
  | 59 => ⟨S4096x64, .f32⟩
  | 60 => ⟨S_, .f32⟩
  | 61 => ⟨S_, .f32⟩
  | 62 => ⟨S4096x64, .f32⟩
  | 63 => ⟨S_, .f32⟩
  | 64 => ⟨S_, .f32⟩
  | 65 => ⟨S_, .f32⟩
  | 66 => ⟨S4096x50x64, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_v40 : Ref sig .tc := ⟨.hbm, 60, rfl⟩
abbrev main_v41 : Ref sig .tc := ⟨.hbm, 61, rfl⟩
abbrev main_c_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_13 : Ref sig .tc := ⟨.hbm, 77, rfl⟩
abbrev main_v55 : Ref sig .tc := ⟨.hbm, 78, rfl⟩
abbrev main_v56 : Ref sig .tc := ⟨.hbm, 79, rfl⟩
abbrev main_c_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_16 : Ref sig .tc := ⟨.hbm, 93, rfl⟩
abbrev main_v68 : Ref sig .tc := ⟨.hbm, 94, rfl⟩
abbrev main_v69 : Ref sig .tc := ⟨.hbm, 95, rfl⟩
abbrev main_c_17 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_18 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_19 : Ref sig .tc := ⟨.hbm, 111, rfl⟩
abbrev main_v83 : Ref sig .tc := ⟨.hbm, 112, rfl⟩
abbrev main_v84 : Ref sig .tc := ⟨.hbm, 113, rfl⟩
abbrev main_c_20 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_21 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_22 : Ref sig .tc := ⟨.hbm, 127, rfl⟩
abbrev main_v96 : Ref sig .tc := ⟨.hbm, 128, rfl⟩
abbrev main_v97 : Ref sig .tc := ⟨.hbm, 129, rfl⟩
abbrev main_c_23 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_24 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_25 : Ref sig .tc := ⟨.hbm, 145, rfl⟩
abbrev main_v111 : Ref sig .tc := ⟨.hbm, 146, rfl⟩
abbrev main_v112 : Ref sig .tc := ⟨.hbm, 147, rfl⟩
abbrev main_cst_26 : Ref sig .tc := ⟨.hbm, 148, rfl⟩
abbrev main_v113 : Ref sig .tc := ⟨.hbm, 149, rfl⟩
abbrev main_v114 : Ref sig .tc := ⟨.hbm, 150, rfl⟩
abbrev main_c_27 : Ref sig .tc := ⟨.hbm, 151, rfl⟩
abbrev main_v115 : Ref sig .tc := ⟨.hbm, 152, rfl⟩
abbrev main_v116 : Ref sig .tc := ⟨.hbm, 153, rfl⟩
abbrev main_c_28 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_c_29 : Ref sig .tc := ⟨.hbm, 160, rfl⟩
abbrev main_v122 : Ref sig .tc := ⟨.hbm, 161, rfl⟩
abbrev main_v123 : Ref sig .tc := ⟨.hbm, 162, rfl⟩
abbrev main_c_30 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_c_31 : Ref sig .tc := ⟨.hbm, 169, rfl⟩
abbrev main_v129 : Ref sig .tc := ⟨.hbm, 170, rfl⟩
abbrev main_v130 : Ref sig .tc := ⟨.hbm, 171, rfl⟩
abbrev main_c_32 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_cst_33 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_34 : Ref sig .tc := ⟨.hbm, 185, rfl⟩
abbrev main_v142 : Ref sig .tc := ⟨.hbm, 186, rfl⟩
abbrev main_v143 : Ref sig .tc := ⟨.hbm, 187, rfl⟩
abbrev main_cst_35 : Ref sig .tc := ⟨.hbm, 188, rfl⟩
abbrev main_v144 : Ref sig .tc := ⟨.hbm, 189, rfl⟩
abbrev main_v145 : Ref sig .tc := ⟨.hbm, 190, rfl⟩
abbrev main_cst_36 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_cst_37 : Ref sig .tc := ⟨.hbm, 195, rfl⟩
abbrev main_v149 : Ref sig .tc := ⟨.hbm, 196, rfl⟩
abbrev main_v150 : Ref sig .tc := ⟨.hbm, 197, rfl⟩
abbrev main_cst_38 : Ref sig .tc := ⟨.hbm, 198, rfl⟩
abbrev main_v151 : Ref sig .tc := ⟨.hbm, 199, rfl⟩
abbrev main_cst_39 : Ref sig .tc := ⟨.hbm, 200, rfl⟩
abbrev main_v152 : Ref sig .tc := ⟨.hbm, 201, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S_S100000 : S_.BroadcastsInDim S100000 (![] : Fin 0 → Fin S100000.rank)
  bcast_S2000000_S2000000x1_0 : S2000000.BroadcastsInDim S2000000x1 (![0] : Fin 1 → Fin S2000000x1.rank)
  bcast_S_S50000 : S_.BroadcastsInDim S50000 (![] : Fin 0 → Fin S50000.rank)
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  bcast_S_S50000x64 : S_.BroadcastsInDim S50000x64 (![] : Fin 0 → Fin S50000x64.rank)
  bcast_S_S4096 : S_.BroadcastsInDim S4096 (![] : Fin 0 → Fin S4096.rank)
  bcast_S4096_S4096x1_0 : S4096.BroadcastsInDim S4096x1 (![0] : Fin 1 → Fin S4096x1.rank)
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  reducesTo_S4096x64_S4096_d1 : S4096x64.ReducesTo [1] S4096
  h_S_ : 0 < S_.numel
  bcast_S4096x64_S4096x1x64_0_2 : S4096x64.BroadcastsInDim S4096x1x64 (![0, 2] : Fin 2 → Fin S4096x1x64.rank)
  bcast_S4096x1x64_S4096x50x64_0_1_2 : S4096x1x64.BroadcastsInDim S4096x50x64 (![0, 1, 2] : Fin 3 → Fin S4096x50x64.rank)
  reducesTo_S4096x50x64_S4096x50_d2 : S4096x50x64.ReducesTo [2] S4096x50
  reducesTo_S4096x64_S_d0_1 : S4096x64.ReducesTo [0, 1] S_
  reducesTo_S4096x50x64_S_d0_1_2 : S4096x50x64.ReducesTo [0, 1, 2] S_
  scatter_S100000_S2000000x1_S2000000_n_0_0_1_wf : ScatterDims.WF S100000 S2000000x1 S2000000 [] [0] [0] 1
  scatter_S50000_S2000000x1_S2000000_n_0_0_1_wf : ScatterDims.WF S50000 S2000000x1 S2000000 [] [0] [0] 1
  gather_S100000_S2000000x1_S2000000_n_0_n_n_0_1_1_wf : GatherDims.WF S100000 S2000000x1 S2000000 [] [0] [] [0] [] 1 ![1]
  gather_S50000_S2000000x1_S2000000_n_0_n_n_0_1_1_wf : GatherDims.WF S50000 S2000000x1 S2000000 [] [0] [] [0] [] 1 ![1]
  gather_S50000x64_S2000000x1_S2000000x64_1_0_n_n_0_1_164_wf : GatherDims.WF S50000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S2000000x1_S2000000x64_1_0_n_n_0_1_164_wf : GatherDims.WF S100000x64 S2000000x1 S2000000x64 [1] [0] [] [0] [] 1 ![1, 64]
  scatter_S50000x64_S2000000x1_S2000000x64_1_0_0_1_wf : ScatterDims.WF S50000x64 S2000000x1 S2000000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]
  gather_S50000x64_S4096x50x1_S4096x50x64_2_0_n_n_0_2_164_wf : GatherDims.WF S50000x64 S4096x50x1 S4096x50x64 [2] [0] [] [0] [] 2 ![1, 64]

variable [Facts₀]

def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def gather_S100000_S2000000x1_S2000000_n_0_n_n_0_1_1 : GatherDims S100000 S2000000x1 S2000000 where
  offsetDims := []
  collapsedSliceDims := [0]
  operandBatchingDims := []
  startIndicesBatchingDims := []
  startIndexMap := [0]
  indexVectorDim := 1
  sliceSizes := ![1]
  wf := gather_S100000_S2000000x1_S2000000_n_0_n_n_0_1_1_wf
def gather_S50000_S2000000x1_S2000000_n_0_n_n_0_1_1 : GatherDims S50000 S2000000x1 S2000000 where
  offsetDims := []
  collapsedSliceDims := [0]
  operandBatchingDims := []
  startIndicesBatchingDims := []
  startIndexMap := [0]
  indexVectorDim := 1
  sliceSizes := ![1]
  wf := gather_S50000_S2000000x1_S2000000_n_0_n_n_0_1_1_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf
def gather_S50000x64_S4096x50x1_S4096x50x64_2_0_n_n_0_2_164 : GatherDims S50000x64 S4096x50x1 S4096x50x64 where
  offsetDims := [2]
  collapsedSliceDims := [0]
  operandBatchingDims := []
  startIndicesBatchingDims := []
  startIndexMap := [0]
  indexVectorDim := 2
  sliceSizes := ![1, 64]
  wf := gather_S50000x64_S4096x50x1_S4096x50x64_2_0_n_n_0_2_164_wf

class Facts : Prop extends Facts₀ where

variable [Facts]
-- ==== Proof.LibLayout3.lean ====
/-
  Layout operations and one-axis reductions read at an index written by coordinates (a general lemma file: it imports
  only the library and is generic in the extents).

  A tile of the kernel works with three index sets: (row, column) pairs, (row, column, coordinate) triples for the
  distances, and (row, positive, negative) triples for the mining step. The programs move between them by inserting a
  unit axis and broadcasting along it, and come back by reducing over the last axis. Each lemma here says which entry of
  the operand one entry of the result reads, with every index spelt by its coordinates.
-/
import Idealize.ShloMosaic.Lib.ValueLayout
import Idealize.ShloMosaic.PureOps.Ideal.Laws

open scoped BigOperators

namespace Cert.LibLayout3

open Idealize.ShloMosaic Idealize.ShloMosaic.ValueIdx

section Casts
variable {α : Type}

/-- An [a, c] array viewed as [a, 1, c] reads, at (r, u, d), the operand at (r, d). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (d : Fin c) :
    shapeCast ⟨3, ![a, 1, c]⟩ x h (ix3 r u d) = x (ix2 r d) :=
  shapeCast_apply x h _ _ (by
    have hu : u.val = 0 := by omega
    rw [Shape.rowMajor_val_three, Shape.rowMajor_val_two]
    show r.val * c + d.val = (r.val * 1 + u.val) * c + d.val
    rw [hu, Nat.mul_one, Nat.add_zero])

/-- An [a, b] array viewed as [a, b, 1] reads, at (r, j, u), the operand at (r, j). -/
theorem shapeCast_ab_ab1_apply {a b : ℕ} (x : (⟨2, ![a, b]⟩ : Shape).Idx → α)
    (h : (⟨2, ![a, b]⟩ : Shape).ShapeCasts ⟨3, ![a, b, 1]⟩) (r : Fin a) (j : Fin b) (u : Fin 1) :
    shapeCast ⟨3, ![a, b, 1]⟩ x h (ix3 r j u) = x (ix2 r j) :=
  shapeCast_apply x h _ _ (by
    have hu : u.val = 0 := by omega
    rw [Shape.rowMajor_val_three, Shape.rowMajor_val_two]
    show r.val * b + j.val = (r.val * b + j.val) * 1 + u.val
    rw [hu, Nat.mul_one, Nat.add_zero])

/-- A vector [a] viewed as the column [a, 1] reads, at (r, u), the operand at r. -/
theorem shapeCast_a_a1_apply {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

end Casts

section Broadcasts
variable {α : Type}

/-- A column [a, 1] broadcast to [a, b] reads, at (r, j), the column at r. -/
theorem broadcastTo_a1_ab_apply {a b : ℕ} (v : (⟨2, ![a, 1]⟩ : Shape).Idx → α)
    (h : (⟨2, ![a, 1]⟩ : Shape).Broadcasts ⟨2, ![a, b]⟩) (r : Fin a) (j : Fin b) :
    broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- An [a, 1, c] array broadcast along its middle axis to [a, b, c] reads, at (r, j, d), the operand at (r, 0, d). -/
theorem broadcastTo_a1c_abc_apply {a b c : ℕ} (v : (⟨3, ![a, 1, c]⟩ : Shape).Idx → α)
    (h : (⟨3, ![a, 1, c]⟩ : Shape).Broadcasts ⟨3, ![a, b, c]⟩) (r : Fin a) (j : Fin b) (d : Fin c) :
    broadcastTo ⟨3, ![a, b, c]⟩ v h (ix3 r j d) = v (ix3 r (0 : Fin 1) d) := by
  refine broadcastTo_apply v h (ix3 r j d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if c = 1 then 0 else d.val
    split
    · have := d.isLt; omega
    · rfl

/-- A [1, b, c] array broadcast along its first axis to [a, b, c] reads, at (r, j, d), the operand at (0, j, d). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (j : Fin b) (d : Fin c) :
    broadcastTo ⟨3, ![a, b, c]⟩ v h (ix3 r j d) = v (ix3 (0 : Fin 1) j d) := by
  refine broadcastTo_apply v h (ix3 r j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- An [a, b, 1] array broadcast along its last axis to [a, b, c] reads, at (r, j, k), the operand at (r, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (j : Fin b) (k : Fin c) :
    broadcastTo ⟨3, ![a, b, c]⟩ v h (ix3 r j k) = v (ix3 r j (0 : Fin 1)) := by
  refine broadcastTo_apply v h (ix3 r j k) (ix3 r j (0 : Fin 1)) fun ax => ?_
  match ax with
  | ⟨0, _⟩ =>
    show r.val = if a = 1 then 0 else r.val
    split
    · have := r.isLt; omega
    · rfl
  | ⟨1, _⟩ =>
    show j.val = if b = 1 then 0 else j.val
    split
    · have := j.isLt; omega
    · rfl
  | ⟨2, _⟩ => rfl

end Broadcasts

/-! ## The index a one-axis reduction inserts, by coordinates -/

section Lift

/-- Over [a, b, c] reduced along its last axis, the index above (r, j) with coordinate d is (r, j, d). -/
theorem lift_abc_last {a b c : ℕ} (h : Shape.Reduces ⟨3, ![a, b, c]⟩ [2] ⟨2, ![a, b]⟩) (r : Fin a) (j : Fin b) (d : Fin c) :
    h.lift (ix2 r j) d = ix3 r j d := by
  funext x
  match x with
  | ⟨0, _⟩ => exact Fin.ext rfl
  | ⟨1, _⟩ => exact Fin.ext rfl
  | ⟨2, _⟩ => exact Fin.ext rfl

/-- Over [a, b] reduced along its columns, the index above r with coordinate j is (r, j). -/
theorem lift_ab_last {a b : ℕ} (h : Shape.Reduces ⟨2, ![a, b]⟩ [1] ⟨1, ![a]⟩) (r : Fin a) (j : Fin b) :
    h.lift (ix1 r) j = ix2 r j := by
  funext x
  match x with
  | ⟨0, _⟩ => exact Fin.ext rfl
  | ⟨1, _⟩ => exact Fin.ext rfl

/-- Over the column [a, 1] reduced along its rows, the index above u with coordinate r is (r, u). -/
theorem lift_a1_first {a : ℕ} (h : Shape.Reduces ⟨2, ![a, 1]⟩ [0] ⟨1, ![1]⟩) (u : Fin 1) (r : Fin a) :
    h.lift (ix1 u) r = ix2 r u := by
  funext x
  match x with
  | ⟨0, _⟩ => exact Fin.ext rfl
  | ⟨1, _⟩ => exact Fin.ext rfl

end Lift

/-! ## One-axis reductions over the extended reals

The sum of a lane is a plain finite sum; a maximum or a minimum is the fold of max or min over the lane's
coordinates, started from the value of the accumulator's word. The reduced axis is written as an element of a literal
Fin type (Fin 2 or Fin 3), the rank of the array being reduced. -/

section Reductions

/-- A minimum over one axis is the fold of min over that axis's coordinates, from the accumulator's value. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum over the last axis of an [a, b, c] array, at (r, j). -/
theorem sum_abc_last {a b c : ℕ} (src : FVec Ideal ⟨3, ![a, b, c]⟩ .f32)
    (h : Shape.Reduces ⟨3, ![a, b, c]⟩ [2] ⟨2, ![a, b]⟩) (hacc : (0x00000000#32 : BitVec 32) = 0x00000000#32)
    (r : Fin a) (j : Fin b) :
    multiReduction (s := ⟨3, ![a, b, c]⟩) .add ([2] : List (Fin 3)) ⟨2, ![a, b]⟩ src 0x00000000#32 h (.inl rfl) hacc (ix2 r j)
      = ∑ d : Fin c, src (ix3 r j d) :=
  (Ideal.multiReduction_add_single src 0x00000000#32 h (.inl rfl) hacc (ix2 r j)).trans
    (Finset.sum_congr rfl fun d _ => congrArg src (lift_abc_last h r j d))

/-- The sum over the columns of an [a, b] array, at r. -/
theorem sum_ab_last {a b : ℕ} (src : FVec Ideal ⟨2, ![a, b]⟩ .f32)
    (h : Shape.Reduces ⟨2, ![a, b]⟩ [1] ⟨1, ![a]⟩) (hacc : (0x00000000#32 : BitVec 32) = 0x00000000#32) (r : Fin a) :
    multiReduction (s := ⟨2, ![a, b]⟩) .add ([1] : List (Fin 2)) ⟨1, ![a]⟩ src 0x00000000#32 h (.inl rfl) hacc (ix1 r)
      = ∑ j : Fin b, src (ix2 r j) :=
  (Ideal.multiReduction_add_single src 0x00000000#32 h (.inl rfl) hacc (ix1 r)).trans
    (Finset.sum_congr rfl fun j _ => congrArg src (lift_ab_last h r j))

/-- The sum over the rows of a column [a, 1], at its one index. -/
theorem sum_a1_first {a : ℕ} (src : FVec Ideal ⟨2, ![a, 1]⟩ .f32)
    (h : Shape.Reduces ⟨2, ![a, 1]⟩ [0] ⟨1, ![1]⟩) (hacc : (0x00000000#32 : BitVec 32) = 0x00000000#32) (u : Fin 1) :
    multiReduction (s := ⟨2, ![a, 1]⟩) .add ([0] : List (Fin 2)) ⟨1, ![1]⟩ src 0x00000000#32 h (.inl rfl) hacc (ix1 u)
      = ∑ r : Fin a, src (ix2 r u) :=
  (Ideal.multiReduction_add_single src 0x00000000#32 h (.inl rfl) hacc (ix1 u)).trans
    (Finset.sum_congr rfl fun r _ => congrArg src (lift_a1_first h u r))

/-- The maximum over the columns of an [a, b] array, at r. -/
theorem max_ab_last {a b : ℕ} (src : FVec Ideal ⟨2, ![a, b]⟩ .f32)
    (h : Shape.Reduces ⟨2, ![a, b]⟩ [1] ⟨1, ![a]⟩) (hacc : (0xFF800000#32 : BitVec 32) = 0xFF800000#32) (r : Fin a) :
    multiReduction (s := ⟨2, ![a, b]⟩) .maximumf ([1] : List (Fin 2)) ⟨1, ![a]⟩ src 0xFF800000#32 h (.inl rfl) hacc (ix1 r)
      = (Finset.univ : Finset (Fin b)).fold max (Ideal.ofBits .f32 0xFF800000#32) (fun j => src (ix2 r j)) :=
  (Ideal.multiReduction_maximumf_single src 0xFF800000#32 h (.inl rfl) hacc (ix1 r)).trans
    (Finset.fold_congr fun j _ => congrArg src (lift_ab_last h r j))

/-- The minimum over the columns of an [a, b] array, at r. -/
theorem min_ab_last {a b : ℕ} (src : FVec Ideal ⟨2, ![a, b]⟩ .f32)
    (h : Shape.Reduces ⟨2, ![a, b]⟩ [1] ⟨1, ![a]⟩) (hacc : (0x7F800000#32 : BitVec 32) = 0x7F800000#32) (r : Fin a) :
    multiReduction (s := ⟨2, ![a, b]⟩) .minimumf ([1] : List (Fin 2)) ⟨1, ![a]⟩ src 0x7F800000#32 h (.inl rfl) hacc (ix1 r)
      = (Finset.univ : Finset (Fin b)).fold min (Ideal.ofBits .f32 0x7F800000#32) (fun j => src (ix2 r j)) :=
  (multiReduction_minimumf_single src 0x7F800000#32 h (.inl rfl) hacc (ix1 r)).trans
    (Finset.fold_congr fun j _ => congrArg src (lift_ab_last h r j))

/-- The minimum over the last axis of an [a, b, c] array, at (r, j). -/
theorem min_abc_last {a b c : ℕ} (src : FVec Ideal ⟨3, ![a, b, c]⟩ .f32)
    (h : Shape.Reduces ⟨3, ![a, b, c]⟩ [2] ⟨2, ![a, b]⟩) (hacc : (0x7F800000#32 : BitVec 32) = 0x7F800000#32)
    (r : Fin a) (j : Fin b) :
    multiReduction (s := ⟨3, ![a, b, c]⟩) .minimumf ([2] : List (Fin 3)) ⟨2, ![a, b]⟩ src 0x7F800000#32 h (.inl rfl) hacc (ix2 r j)
      = (Finset.univ : Finset (Fin c)).fold min (Ideal.ofBits .f32 0x7F800000#32) (fun k => src (ix3 r j k)) :=
  (multiReduction_minimumf_single src 0x7F800000#32 h (.inl rfl) hacc (ix2 r j)).trans
    (Finset.fold_congr fun k _ => congrArg src (lift_abc_last h r j k))

end Reductions

end Cert.LibLayout3
-- ==== Proof.Spec.lean ====
/-
  The mathematics both programs compute, written once over plain index functions.

  Three arrays enter: `u` and `p`, each 4096 rows of 64 numbers (a batch of user vectors and of positive-item
  vectors), and `q`, 4096 tables of 50 rows of 64 numbers (the negative-item vectors of each batch entry).
  Three things leave:
    * the positive score of entry `b`: the dot product of row `b` of `u` with row `b` of `p`;
    * the negative score of entry `b` against its `n`-th negative: the dot product of row `b` of `u` with row `(b, n)` of `q`;
    * the regulariser: one half of the total of all squares of `u`, `p` and `q`, divided by 4096.
  One program totals the squares array by array.  The other cuts the 4096 batch entries into 16 blocks of 256 and
  the 50 negatives into 5 groups of 10, totals each block separately — the squares of `u`, then of `p`, then of the
  five groups of `q` in turn — and adds the 16 block totals at the end.  Addition of extended reals is commutative and
  associative, so the two totals agree whatever the entries are (`blockTotal_sum`, in the module that proves it).
-/
import Idealize.ShloMosaic.PureOps.Ideal
import Idealize.ShloMosaic.Lib.ValueIdx

noncomputable section

open scoped BigOperators

namespace Cert.Score

open Idealize.ShloMosaic Idealize.ShloMosaic.ValueIdx

/-- 4096 rows of 64 extended reals. -/
abbrev Rows := (⟨2, ![4096, 64]⟩ : Shape).Idx → EReal
/-- 4096 tables of 50 rows of 64 extended reals. -/
abbrev Tables := (⟨3, ![4096, 50, 64]⟩ : Shape).Idx → EReal

/-- Row `r` of block `t` among the 4096 rows: blocks are 256 consecutive rows. -/
def blockRow (t : Fin 16) (r : Fin 256) : Fin 4096 := ⟨256 * t.val + r.val, by have := t.isLt; have := r.isLt; omega⟩
/-- Negative `n` of group `g` among the 50 negatives: groups are 10 consecutive negatives. -/
def groupNeg (g : Fin 5) (n : Fin 10) : Fin 50 := ⟨10 * g.val + n.val, by have := g.isLt; have := n.isLt; omega⟩

theorem blockRow_val (t : Fin 16) (r : Fin 256) : (blockRow t r).val = 256 * t.val + r.val := rfl
theorem groupNeg_val (g : Fin 5) (n : Fin 10) : (groupNeg g n).val = 10 * g.val + n.val := rfl

/-- The positive score of batch entry `i 0`: the dot product of its row of `u` with its row of `p`. -/
def posScore (u p : Rows) : (⟨2, ![4096, 1]⟩ : Shape).Idx → EReal :=
  fun i => ∑ d : Fin 64, u (ix2 (i 0) d) * p (ix2 (i 0) d)

/-- The score of batch entry `i 0` against its negative `i 1`: the dot product of its row of `u` with that row of `q`. -/
def negScore (u : Rows) (q : Tables) : (⟨2, ![4096, 50]⟩ : Shape).Idx → EReal :=
  fun i => ∑ d : Fin 64, u (ix2 (i 0) d) * q (ix3 (i 0) (i 1) d)

/-- The squares of block `t` of a row array, totalled row by row. -/
def sqBlock (u : Rows) (t : Fin 16) : EReal :=
  ∑ r : Fin 256, ∑ d : Fin 64, u (ix2 (blockRow t r) d) * u (ix2 (blockRow t r) d)

/-- The squares of group `g` of the negatives of block `t`, totalled row by row, negative by negative. -/
def sqGroup (q : Tables) (t : Fin 16) (g : Fin 5) : EReal :=
  ∑ r : Fin 256, ∑ n : Fin 10, ∑ d : Fin 64,
    q (ix3 (blockRow t r) (groupNeg g n) d) * q (ix3 (blockRow t r) (groupNeg g n) d)

/-- Block `t`'s share of the total of squares, in the order the blockwise program adds it up. -/
def blockTotal (u p : Rows) (q : Tables) (t : Fin 16) : EReal :=
  (((((sqBlock u t + sqBlock p t) + sqGroup q t 0) + sqGroup q t 1) + sqGroup q t 2) + sqGroup q t 3) + sqGroup q t 4

/-- The total of all squares, array by array. -/
def sqTotal (u p : Rows) (q : Tables) : EReal :=
  ((∑ i, u i * u i) + ∑ i, p i * p i) + ∑ i, q i * q i

/-- The regulariser as both programs finish it: one half (the word `0x3F000000`) times a total, divided by 4096 (the
    word `0x45800000`) with the host's division; the two constants are the same words on both sides and are never
    evaluated. -/
def regOf (total : EReal) : (⟨0, ![]⟩ : Shape).Idx → EReal :=
  Host.divf (F := Ideal) (mulf (constant (F := Ideal) ⟨0, ![]⟩ .f32 0x3F000000#32) (fun _ => total))
    (constant (F := Ideal) ⟨0, ![]⟩ .f32 0x45800000#32)

/-- The regulariser of the three arrays. -/
def regLoss (u p : Rows) (q : Tables) : (⟨0, ![]⟩ : Shape).Idx → EReal := regOf (sqTotal u p q)

end Cert.Score

end
-- ==== Proof.Body.lean ====
/-
  One grid point of the scoring stage, read entry by entry.

  At a grid point the body holds a block of 256 rows of `u` (x0), the same 256 rows of `p` (x1) and the 256 tables of
  50 negatives (x2).  It writes three things: the 256 positive scores (each a dot product of a row of x0 with the same
  row of x1), the 256 × 50 negative scores (row r of x0 against row (r, n) of x2 — written in five pieces of ten
  negatives each, every piece the same function of where it sits), and one number, the block's total of squares, spread
  over an 8 × 128 tile.  The total is added up in a fixed order: the squares of x0 row by row, then those of x1, then the
  five groups of ten negatives one after the other, each group row by row.
-/
import proofs.«148021_j6064493822026_2_alg».proof.Proof.Gen.KernelIdeal.Frame
import proofs.«148021_j6064493822026_2_alg».proof.Proof.LibLayout3
import proofs.«148021_j6064493822026_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.Score.Body

open Idealize.ShloMosaic Idealize.ShloMosaic.ValueIdx Idealize.ShloMosaic.Pipeline
open Cert.KernelIdeal Cert.KernelIdeal.Gen Cert.LibLayout3 Cert.Score

variable [hK : Cert.KernelIdeal.Facts]

/-! ## The block's three results as functions of the block -/

/-- Row r of x0 against row r of x1. -/
def blkPos (x0 x1 : Vec Ideal S256x64 .f32) : S256x1.Idx → EReal :=
  fun y => ∑ d : Fin 64, x0 (ix2 (y 0) d) * x1 (ix2 (y 0) d)

/-- Row r of x0 against row (r, n) of x2. -/
def blkNeg (x0 : Vec Ideal S256x64 .f32) (x2 : Vec Ideal S256x50x64 .f32) : S256x50.Idx → EReal :=
  fun y => ∑ d : Fin 64, x0 (ix2 (y 0) d) * x2 (ix3 (y 0) (y 1) d)

/-- The squares of a block of rows, totalled row by row. -/
def sqRows (x : Vec Ideal S256x64 .f32) : EReal := ∑ r : Fin 256, ∑ d : Fin 64, x (ix2 r d) * x (ix2 r d)

/-- The squares of group g of the block's negatives, totalled row by row, negative by negative. -/
def sqNegs (x2 : Vec Ideal S256x50x64 .f32) (g : Fin 5) : EReal :=
  ∑ r : Fin 256, ∑ n : Fin 10, ∑ d : Fin 64, x2 (ix3 r (groupNeg g n) d) * x2 (ix3 r (groupNeg g n) d)

/-- The block's total of squares, in the order the body adds it up. -/
def blkTotal (x0 x1 : Vec Ideal S256x64 .f32) (x2 : Vec Ideal S256x50x64 .f32) : EReal :=
  (((((sqRows x0 + sqRows x1) + sqNegs x2 0) + sqNegs x2 1) + sqNegs x2 2) + sqNegs x2 3) + sqNegs x2 4

/-! ## The payloads at an entry -/

/-- The positive scores of the block: entry (r, ·) is the dot product of row r of x0 with row r of x1. -/
theorem rowDot_apply (x0 x1 : Vec Ideal S256x64 .f32) (r : Fin 256) (u : Fin 1) :
    k0_pay6 (F := Ideal) x0 x1 (ix2 r u) = ∑ d : Fin 64, x0 (ix2 r d) * x1 (ix2 r d) := by
  unfold k0_pay6 k0_pay4 k0_pay5
  rw [shapeCast_a_a1_apply, sum_ab_last]
  simp only [shapeCast_self, mulf_apply]

/-- Ten negatives at once: a row of v1, repeated along the ten, times the ten rows, summed over the 64 coordinates. -/
theorem chunkDot_apply (v1 : FVec Ideal S256x64 .f32) (w : FVec Ideal S256x10x64 .f32) (r : Fin 256) (n : Fin 10) :
    multiReduction (F := Ideal) .add [2] S256x10
        (mulf (broadcastTo S256x10x64 (shapeCast S256x1x64 (shapeCast S256x1x64 v1 shapeCasts_S256x64_S256x1x64)
          shapeCasts_S256x1x64_S256x1x64) broadcasts_S256x1x64_S256x10x64) w)
        0x00000000#32 reduces_S256x10x64_S256x10 (.inl rfl) rfl (ix2 r n)
      = ∑ d : Fin 64, v1 (ix2 r d) * w (ix3 r n d) := by
  rw [sum_abc_last]
  refine Finset.sum_congr rfl fun d _ => ?_
  rw [mulf_apply, broadcastTo_a1c_abc_apply, shapeCast_self, shapeCast_ac_a1c_apply]

/-- The squares of 256 rows of 64, totalled row by row, as the body computes the total (a [1, 1] vector). -/
theorem sqRows_apply (v : FVec Ideal S256x64 .f32) (a b : Fin 1) :
    shapeCast S1x1 (multiReduction (F := Ideal) .add [0] S1
        (shapeCast S256x1 (multiReduction (F := Ideal) .add [1] S256 (mulf v v) 0x00000000#32 reduces_S256x64_S256 (.inl rfl) rfl)
          shapeCasts_S256_S256x1) 0x00000000#32 reduces_S256x1_S1 (.inl rfl) rfl) shapeCasts_S1_S1x1 (ix2 a b)
      = ∑ r : Fin 256, ∑ d : Fin 64, v (ix2 r d) * v (ix2 r d) := by
  rw [shapeCast_a_a1_apply, sum_a1_first]
  refine Finset.sum_congr rfl fun r _ => ?_
  rw [shapeCast_a_a1_apply, sum_ab_last]
  simp only [mulf_apply]

/-- The squares of 256 tables of ten rows of 64, totalled table by table, row by row. -/
theorem sqTen_apply (w : FVec Ideal S256x10x64 .f32) (a b : Fin 1) :
    shapeCast S1x1 (multiReduction (F := Ideal) .add [0] S1
        (shapeCast S256x1 (multiReduction (F := Ideal) .add [1] S256
          (multiReduction (F := Ideal) .add [2] S256x10 (mulf w w) 0x00000000#32 reduces_S256x10x64_S256x10 (.inl rfl) rfl)
          0x00000000#32 reduces_S256x10_S256 (.inl rfl) rfl)
          shapeCasts_S256_S256x1) 0x00000000#32 reduces_S256x1_S1 (.inl rfl) rfl) shapeCasts_S1_S1x1 (ix2 a b)
      = ∑ r : Fin 256, ∑ n : Fin 10, ∑ d : Fin 64, w (ix3 r n d) * w (ix3 r n d) := by
  rw [shapeCast_a_a1_apply, sum_a1_first]
  refine Finset.sum_congr rfl fun r _ => ?_
  rw [shapeCast_a_a1_apply, sum_ab_last]
  refine Finset.sum_congr rfl fun n _ => ?_
  rw [sum_abc_last]
  simp only [mulf_apply]

/-! ## Loads and stores through the rectangles of the five groups -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The ten negatives from column o on, read at (r, n, d), are the block at (r, o + n, d). -/
theorem ld_group (x2 : Vec Ideal S256x50x64 .f32) (o : Nat)
    (inb : ∀ a, (![0, o, 0] : Fin 3 → Nat) a + S256x10x64.size a ≤ S256x50x64.size a)
    (r : Fin 256) (n : Fin 10) (d : Fin 64) (h : o + n.val < 50) :
    View.ld x2 (Rect.unit (s := S256x50x64) ![0, o, 0] S256x10x64.size inb) (ix3 r n d) = x2 (ix3 r ⟨o + n.val, h⟩ d) := by
  show x2 _ = x2 _
  refine congrArg x2 (funext fun a => Fin.ext ?_)
  match a with
  | ⟨0, _⟩ => show 0 + 1 * r.val = r.val; omega
  | ⟨1, _⟩ => show o + 1 * n.val = o + n.val; omega
  | ⟨2, _⟩ => show 0 + 1 * d.val = d.val; omega

/-- Entry (r, n) of the piece of ten scores from column o on sits at (r, o + n) of the 256 × 50 scores. -/
theorem emb_group (o : Nat) (inb : ∀ a, (![0, o] : Fin 2 → Nat) a + S256x10.size a ≤ S256x50.size a)
    (r : Fin 256) (n : Fin 10) (h : o + n.val < 50) :
    (Rect.unit (s := S256x50) ![0, o] S256x10.size inb).emb (ix2 r n) = ix2 r ⟨o + n.val, h⟩ := by
  funext a
  apply Fin.ext
  match a with
  | ⟨0, _⟩ => show 0 + 1 * r.val = r.val; omega
  | ⟨1, _⟩ => show o + 1 * n.val = o + n.val; omega

/-- A piece of ten negative scores is the block's score function where the piece sits. -/
theorem chunk_piece (x0 : Vec Ideal S256x64 .f32) (x2 : Vec Ideal S256x50x64 .f32) (o : Nat) (ho : o + 10 ≤ 50)
    (inb2 : ∀ a, (![0, o] : Fin 2 → Nat) a + S256x10.size a ≤ S256x50.size a)
    (inb3 : ∀ a, (![0, o, 0] : Fin 3 → Nat) a + S256x10x64.size a ≤ S256x50x64.size a)
    (x : (Rect.unit (s := S256x50) ![0, o] S256x10.size inb2).shape.Idx) :
    multiReduction (F := Ideal) .add [2] S256x10
        (mulf (broadcastTo S256x10x64 (shapeCast S256x1x64 (shapeCast S256x1x64 x0 shapeCasts_S256x64_S256x1x64)
          shapeCasts_S256x1x64_S256x1x64) broadcasts_S256x1x64_S256x10x64)
          (View.ld x2 (Rect.unit (s := S256x50x64) ![0, o, 0] S256x10x64.size inb3)))
        0x00000000#32 reduces_S256x10x64_S256x10 (.inl rfl) rfl x
      = blkNeg x0 x2 ((Rect.unit (s := S256x50) ![0, o] S256x10.size inb2).emb x) := by
  obtain ⟨r, n, rfl⟩ : ∃ (r : Fin 256) (n : Fin 10), x = ix2 r n := ⟨x 0, x 1, eq_ix2 x⟩
  have h : o + n.val < 50 := by have := n.isLt; omega
  rw [chunkDot_apply, emb_group o inb2 r n h]
  unfold blkNeg
  refine Finset.sum_congr rfl fun d _ => ?_
  rw [ld_group x2 o inb3 r n d h]

/-- The squares of the ten negatives from column o on, totalled, are the squares of that group of the block. -/
theorem sqTen_group (x2 : Vec Ideal S256x50x64 .f32) (g : Fin 5) (o : Nat) (ho : o = 10 * g.val)
    (inb : ∀ a, (![0, o, 0] : Fin 3 → Nat) a + S256x10x64.size a ≤ S256x50x64.size a) :
    (∑ r : Fin 256, ∑ n : Fin 10, ∑ d : Fin 64,
        View.ld x2 (Rect.unit (s := S256x50x64) ![0, o, 0] S256x10x64.size inb) (ix3 r n d)
          * View.ld x2 (Rect.unit (s := S256x50x64) ![0, o, 0] S256x10x64.size inb) (ix3 r n d))
      = sqNegs x2 g := by
  unfold sqNegs
  refine Finset.sum_congr rfl fun r _ => Finset.sum_congr rfl fun n _ => Finset.sum_congr rfl fun d _ => ?_
  have h : o + n.val < 50 := by have := n.isLt; have := g.isLt; omega
  rw [ld_group x2 o inb r n d h]
  have e : (⟨o + n.val, h⟩ : Fin 50) = groupNeg g n := Fin.ext (by show o + n.val = 10 * g.val + n.val; omega)
  rw [e]

/-! ## The running total of squares -/

/-- After the first group: the squares of x0's rows, plus those of x1's rows, plus those of the first ten negatives. -/
theorem total1_apply (v0 v2 : Vec Ideal S256x64 .f32) (v19 : Vec Ideal S256x10x64 .f32) (a b : Fin 1) :
    k0_pay9 (F := Ideal) v0 v2 v19 (ix2 a b)
      = ((∑ r : Fin 256, ∑ d : Fin 64, v0 (ix2 r d) * v0 (ix2 r d)) + ∑ r : Fin 256, ∑ d : Fin 64, v2 (ix2 r d) * v2 (ix2 r d))
        + ∑ r : Fin 256, ∑ n : Fin 10, ∑ d : Fin 64, v19 (ix3 r n d) * v19 (ix3 r n d) := by
  unfold k0_pay9 k0_pay4 k0_pay5 k0_pay7
  rw [addf_apply, addf_apply, sqRows_apply, sqRows_apply, sqTen_apply]
  simp only [shapeCast_self]

/-- After two more groups. -/
theorem total3_apply (v33 : FVec Ideal S1x1 .f32) (v34 v49 : Vec Ideal S256x10x64 .f32) (a b : Fin 1) :
    k0_pay14 (F := Ideal) v33 v34 v49 (ix2 a b)
      = (v33 (ix2 a b) + ∑ r : Fin 256, ∑ n : Fin 10, ∑ d : Fin 64, v34 (ix3 r n d) * v34 (ix3 r n d))
        + ∑ r : Fin 256, ∑ n : Fin 10, ∑ d : Fin 64, v49 (ix3 r n d) * v49 (ix3 r n d) := by
  unfold k0_pay14 k0_pay10 k0_pay12
  rw [addf_apply, addf_apply, sqTen_apply, sqTen_apply]
  simp only [shapeCast_self]

/-- After the last two groups, spread over the 8 × 128 tile: every entry of the tile is the total. -/
theorem total5_apply (v63 : FVec Ideal S1x1 .f32) (v65 : FVec Ideal S256x10x64 .f32) (v79 : Vec Ideal S256x10x64 .f32)
    (a : Fin 1) (b : Fin 8) (c : Fin 128) :
    k0_pay3 (F := Ideal) v63 v65 v79 (ix3 a b c)
      = (v63 (ix2 (0 : Fin 1) (0 : Fin 1)) + ∑ r : Fin 256, ∑ n : Fin 10, ∑ d : Fin 64, v65 (ix3 r n d) * v65 (ix3 r n d))
        + ∑ r : Fin 256, ∑ n : Fin 10, ∑ d : Fin 64, v79 (ix3 r n d) * v79 (ix3 r n d) := by
  unfold k0_pay3 k0_pay1
  rw [broadcastTo_apply _ _ (ix3 a b c) (ix3 (0 : Fin 1) (0 : Fin 1) (0 : Fin 1))
    (fun ax => by match ax with | ⟨0, _⟩ => rfl | ⟨1, _⟩ => rfl | ⟨2, _⟩ => rfl)]
  rw [shapeCast_self, shapeCast_ab_ab1_apply, addf_apply, addf_apply, sqTen_apply, sqTen_apply]
  simp only [shapeCast_self]

/-! ## What the body leaves in each output block -/

/-- The block of positive scores. -/
theorem out3_eq (x0 x1 : Vec Ideal S256x64 .f32) (x2 : Vec Ideal S256x50x64 .f32) :
    out0_3 (F := Ideal) x0 x1 x2 = blkPos x0 x1 := by
  unfold out0_3
  rw [View.canon_unit_zero zeros2]
  simp only [View.ld_unit_zero (S := S256x64) zeros2]
  funext y
  obtain ⟨r, u, rfl⟩ : ∃ (r : Fin 256) (u : Fin 1), y = ix2 r u := ⟨y 0, y 1, eq_ix2 y⟩
  exact rowDot_apply x0 x1 r u

/-- Each of the five score payloads at (r, n): row r of the rows it was given against row (r, n) of its ten negatives. -/
theorem pay2_apply (v1 : FVec Ideal S256x64 .f32) (v : Vec Ideal S256x10x64 .f32) (r : Fin 256) (n : Fin 10) :
    k0_pay2 (F := Ideal) v1 v (ix2 r n) = ∑ d : Fin 64, v1 (ix2 r d) * v (ix3 r n d) := by
  unfold k0_pay2 k0_pay1
  rw [chunkDot_apply]
  simp only [shapeCast_self]
theorem pay16_apply (v1 : FVec Ideal S256x64 .f32) (v : Vec Ideal S256x10x64 .f32) (r : Fin 256) (n : Fin 10) :
    k0_pay16 (F := Ideal) v1 v (ix2 r n) = ∑ d : Fin 64, v1 (ix2 r d) * v (ix3 r n d) := by
  unfold k0_pay16 k0_pay15
  rw [chunkDot_apply]
  simp only [shapeCast_self]
theorem pay13_apply (v1 : FVec Ideal S256x64 .f32) (v : Vec Ideal S256x10x64 .f32) (r : Fin 256) (n : Fin 10) :
    k0_pay13 (F := Ideal) v1 v (ix2 r n) = ∑ d : Fin 64, v1 (ix2 r d) * v (ix3 r n d) := by
  unfold k0_pay13 k0_pay12
  rw [chunkDot_apply]
  simp only [shapeCast_self]
theorem pay11_apply (v1 : FVec Ideal S256x64 .f32) (v : Vec Ideal S256x10x64 .f32) (r : Fin 256) (n : Fin 10) :
    k0_pay11 (F := Ideal) v1 v (ix2 r n) = ∑ d : Fin 64, v1 (ix2 r d) * v (ix3 r n d) := by
  unfold k0_pay11 k0_pay10
  rw [chunkDot_apply]
  simp only [shapeCast_self]
theorem pay8_apply (v0 : Vec Ideal S256x64 .f32) (v : Vec Ideal S256x10x64 .f32) (r : Fin 256) (n : Fin 10) :
    k0_pay8 (F := Ideal) v0 v (ix2 r n) = ∑ d : Fin 64, v0 (ix2 r d) * v (ix3 r n d) := by
  unfold k0_pay8 k0_pay7 k0_pay4
  rw [chunkDot_apply]
  simp only [shapeCast_self]
theorem pay4_eq (v0 : Vec Ideal S256x64 .f32) : k0_pay4 (F := Ideal) v0 = v0 := by
  unfold k0_pay4; exact shapeCast_self _ _

/-- A piece of ten scores whose entry (r, n) is row r of x0 against row (r, n) of the ten negatives from column o on
    is the block's score function where the piece sits. -/
theorem piece_of (x0 : Vec Ideal S256x64 .f32) (x2 : Vec Ideal S256x50x64 .f32) (o : Nat) (ho : o + 10 ≤ 50)
    (inb2 : ∀ a, (![0, o] : Fin 2 → Nat) a + S256x10.size a ≤ S256x50.size a)
    (inb3 : ∀ a, (![0, o, 0] : Fin 3 → Nat) a + S256x10x64.size a ≤ S256x50x64.size a)
    (f : FVec Ideal S256x10 .f32)
    (hf : ∀ (r : Fin 256) (n : Fin 10), f (ix2 r n)
      = ∑ d : Fin 64, x0 (ix2 r d) * View.ld x2 (Rect.unit (s := S256x50x64) ![0, o, 0] S256x10x64.size inb3) (ix3 r n d))
    (x : (Rect.unit (s := S256x50) ![0, o] S256x10.size inb2).shape.Idx) :
    f x = blkNeg x0 x2 ((Rect.unit (s := S256x50) ![0, o] S256x10.size inb2).emb x) := by
  obtain ⟨r, n, rfl⟩ : ∃ (r : Fin 256) (n : Fin 10), x = ix2 r n := ⟨x 0, x 1, eq_ix2 x⟩
  have h : o + n.val < 50 := by have := n.isLt; omega
  rw [hf, emb_group o inb2 r n h]
  unfold blkNeg
  refine Finset.sum_congr rfl fun d _ => ?_
  rw [ld_group x2 o inb3 r n d h]

/-- The block of negative scores: its five pieces of ten are one function of where each entry sits. -/
theorem out4_eq (x0 x1 : Vec Ideal S256x64 .f32) (x2 : Vec Ideal S256x50x64 .f32) :
    out0_4 (F := Ideal) x0 x1 x2 = blkNeg x0 x2 := by
  funext y
  unfold out0_4
  simp only [View.ld_unit_zero (S := S256x64) zeros2, pay4_eq]
  refine View.canon_apply_of_pieces (Val := Elt Ideal) (blkNeg x0 x2) _ ?_ y (cover0_4 _ _ _ _ _ y)
  refine List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, fun _ h => absurd h List.not_mem_nil⟩⟩⟩⟩⟩
  · exact piece_of x0 x2 40 (by omega) inb_S256x50_S256x10_0_40 inb_S256x50x64_S256x10x64_0_40_0 _ (fun r n => pay2_apply _ _ r n) x
  · exact piece_of x0 x2 30 (by omega) inb_S256x50_S256x10_0_30 inb_S256x50x64_S256x10x64_0_30_0 _ (fun r n => pay16_apply _ _ r n) x
  · exact piece_of x0 x2 20 (by omega) inb_S256x50_S256x10_0_20 inb_S256x50x64_S256x10x64_0_20_0 _ (fun r n => pay13_apply _ _ r n) x
  · exact piece_of x0 x2 10 (by omega) inb_S256x50_S256x10_0_10 inb_S256x50x64_S256x10x64_0_10_0 _ (fun r n => pay11_apply _ _ r n) x
  · exact piece_of x0 x2 0 (by omega) inb_S256x50_S256x10_0_0 inb_S256x50x64_S256x10x64_0_0_0 _ (fun r n => pay8_apply _ _ r n) x

/-- The tile of the block's total of squares: every entry is the total. -/
theorem out5_eq (x0 x1 : Vec Ideal S256x64 .f32) (x2 : Vec Ideal S256x50x64 .f32) :
    out0_5 (F := Ideal) x0 x1 x2 = fun _ => blkTotal x0 x1 x2 := by
  unfold out0_5
  rw [View.canon_unit_zero zeros3]
  simp only [View.ld_unit_zero (S := S256x64) zeros2]
  funext y
  obtain ⟨a, b, c, rfl⟩ : ∃ (a : Fin 1) (b : Fin 8) (c : Fin 128), y = ix3 a b c := ⟨y 0, y 1, y 2, eq_ix3 y⟩
  rw [total5_apply, total3_apply, total1_apply]
  unfold k0_pay15
  simp only [shapeCast_self]
  unfold blkTotal sqRows
  rw [sqTen_group x2 0 0 rfl, sqTen_group x2 1 10 rfl, sqTen_group x2 2 20 rfl, sqTen_group x2 3 30 rfl, sqTen_group x2 4 40 rfl]

end Cert.Score.Body

end
-- ==== Proof.Blocks.lean ====
/-
  From blocks to whole arrays.

  The scoring stage runs over 16 grid points.  Point t reads rows 256·t … 256·t + 255 of `u`, of `p` and of the negatives
  `q`, and writes back rows 256·t … of the positive scores and of the negative scores, and slice t of a 16 × 8 × 128 array
  that carries the block totals.  Each block written back is the restriction of ONE whole-array function — the positive
  scores, the negative scores, or "entry (t, ·, ·) is block t's total" — and the 16 blocks tile each array, so after the
  run each array IS that function.
-/
import proofs.«148021_j6064493822026_2_alg».proof.Proof.Gen.KernelIdeal.Frame
import proofs.«148021_j6064493822026_2_alg».proof.Proof.Body
import proofs.«148021_j6064493822026_2_alg».proof.Proof.Spec
import Idealize.ShloMosaic.Lib.ValueIdx
import Idealize.ShloMosaic.Lib.Pipeline.Value

set_option maxRecDepth 16384

noncomputable section

open scoped BigOperators

namespace Cert.Score.Blocks

open Idealize.ShloMosaic Idealize.ShloMosaic.ValueIdx Idealize.ShloMosaic.Pipeline Idealize.SL.Sem
open Cert.KernelIdeal Cert.KernelIdeal.Gen Cert.Score Cert.Score.Body

/-! ## A block against the whole arrays, over plain variables -/

/-- If x0 and x1 are rows 256·t … of U and P, the block's positive score of row r is the whole-array positive score of
    row 256·t + r. -/
theorem pos_block (U P : Rows) (x0 x1 : Vec Ideal S256x64 .f32) (t : Fin 16)
    (h0 : ∀ (r : Fin 256) (d : Fin 64), x0 (ix2 r d) = U (ix2 (blockRow t r) d))
    (h1 : ∀ (r : Fin 256) (d : Fin 64), x1 (ix2 r d) = P (ix2 (blockRow t r) d))
    (r : Fin 256) (u : Fin 1) :
    blkPos x0 x1 (ix2 r u) = posScore U P (ix2 (blockRow t r) u) := by
  unfold blkPos posScore
  exact Finset.sum_congr rfl fun d _ => by rw [h0, h1]

/-- Likewise for the negative scores. -/
theorem neg_block (U : Rows) (Q : Tables) (x0 : Vec Ideal S256x64 .f32) (x2 : Vec Ideal S256x50x64 .f32) (t : Fin 16)
    (h0 : ∀ (r : Fin 256) (d : Fin 64), x0 (ix2 r d) = U (ix2 (blockRow t r) d))
    (h2 : ∀ (r : Fin 256) (n : Fin 50) (d : Fin 64), x2 (ix3 r n d) = Q (ix3 (blockRow t r) n d))
    (r : Fin 256) (n : Fin 50) :
    blkNeg x0 x2 (ix2 r n) = negScore U Q (ix2 (blockRow t r) n) := by
  unfold blkNeg negScore
  exact Finset.sum_congr rfl fun d _ => by rw [h0, h2]

/-- And the block's total of squares is block t's share of the whole total. -/
theorem total_block (U P : Rows) (Q : Tables) (x0 x1 : Vec Ideal S256x64 .f32) (x2 : Vec Ideal S256x50x64 .f32) (t : Fin 16)
    (h0 : ∀ (r : Fin 256) (d : Fin 64), x0 (ix2 r d) = U (ix2 (blockRow t r) d))
    (h1 : ∀ (r : Fin 256) (d : Fin 64), x1 (ix2 r d) = P (ix2 (blockRow t r) d))
    (h2 : ∀ (r : Fin 256) (n : Fin 50) (d : Fin 64), x2 (ix3 r n d) = Q (ix3 (blockRow t r) n d)) :
    blkTotal x0 x1 x2 = blockTotal U P Q t := by
  unfold blkTotal blockTotal sqRows sqNegs sqBlock sqGroup
  simp only [h0, h1, h2]

/-! ## The windows' blocks at a grid point -/

variable (m : (ℓ : Loc nD τ sig) → Buf (Elt Ideal) ℓ)

/-- Grid point t as a block number: the grid has 16 points. -/
def pt (t : Fin cfg0.N) : Fin 16 := ⟨t.val, lt_of_lt_of_eq t.isLt N_0⟩

theorem pt_val (t : Fin cfg0.N) : (pt t).val = t.val := rfl

/-- The printed index maps, decided once over the 16 grid points: every window's block index is the point's number on
    the batch axis and 0 on the others. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The block of `u` at point t: rows 256·t … of the array as the region finds it. -/
theorem iblk0_at (c : Dev nD) (t : Fin cfg0.N) (r : Fin 256) (d : Fin 64) :
    iblk m c 0 t (ix2 r d) = V m c main_v121 (ix2 (blockRow (pt t) r) d) := by
  obtain ⟨e00, e01, -⟩ := idx_facts t
  show V m c main_v121 (((cfg0.win 0).blk t).view.emb (ix2 r d)) = _
  refine congrArg (V m c main_v121) (funext fun a => Fin.ext ?_)
  match a with
  | ⟨0, _⟩ => show win0_0.index t (0 : Fin 2) * 256 + 1 * r.val = 256 * t.val + r.val; omega
  | ⟨1, _⟩ => show win0_0.index t (1 : Fin 2) * 64 + 1 * d.val = d.val; omega

/-- The block of `p` at point t. -/
theorem iblk1_at (c : Dev nD) (t : Fin cfg0.N) (r : Fin 256) (d : Fin 64) :
    iblk m c 1 t (ix2 r d) = V m c main_v128 (ix2 (blockRow (pt t) r) d) := by
  obtain ⟨-, -, e10, e11, -⟩ := idx_facts t
  show V m c main_v128 (((cfg0.win 1).blk t).view.emb (ix2 r d)) = _
  refine congrArg (V m c main_v128) (funext fun a => Fin.ext ?_)
  match a with
  | ⟨0, _⟩ => show win0_1.index t (0 : Fin 2) * 256 + 1 * r.val = 256 * t.val + r.val; omega
  | ⟨1, _⟩ => show win0_1.index t (1 : Fin 2) * 64 + 1 * d.val = d.val; omega

/-- The block of negatives at point t. -/
theorem iblk2_at (c : Dev nD) (t : Fin cfg0.N) (r : Fin 256) (n : Fin 50) (d : Fin 64) :
    iblk m c 2 t (ix3 r n d) = V m c main_v135 (ix3 (blockRow (pt t) r) n d) := by
  obtain ⟨-, -, -, -, e20, e21, e22, -⟩ := idx_facts t
  show V m c main_v135 (((cfg0.win 2).blk t).view.emb (ix3 r n d)) = _
  refine congrArg (V m c main_v135) (funext fun a => Fin.ext ?_)
  match a with
  | ⟨0, _⟩ => show win0_2.index t (0 : Fin 3) * 256 + 1 * r.val = 256 * t.val + r.val; omega
  | ⟨1, _⟩ => show win0_2.index t (1 : Fin 3) * 50 + 1 * n.val = n.val; omega
  | ⟨2, _⟩ => show win0_2.index t (2 : Fin 3) * 64 + 1 * d.val = d.val; omega

/-! ## What each point writes back is a block of one whole-array function -/

/-- The totals array: entry (t, ·, ·) is block t's share of the total of squares. -/
def totals (U P : Rows) (Q : Tables) : (⟨3, ![16, 8, 128]⟩ : Shape).Idx → EReal := fun i => blockTotal U P Q (i 0)

/-- Point t writes back rows 256·t … of the positive scores. -/
theorem flushed3_eq (c : Dev nD) (t : Fin cfg0.N) :
    (dats m 0 c).flushed 3 t
      = ((cfg0.win 3).blk t).view.read (Elt Ideal) (posScore (V m c main_v121) (V m c main_v128)) := by
  show (cfg0.win 3).cut (grid0.coords t) ((dats m 0 c).after 3 t) = _
  rw [after0_3, out3_eq]
  obtain ⟨-, -, -, -, -, -, -, e30, e31, -⟩ := idx_facts t
  funext j
  obtain ⟨r, u, rfl⟩ : ∃ (r : Fin 256) (u : Fin 1), j = ix2 r u := ⟨j 0, j 1, eq_ix2 j⟩
  show blkPos (iblk m c 0 t) (iblk m c 1 t) (ix2 r u)
    = posScore (V m c main_v121) (V m c main_v128) (((cfg0.win 3).blk t).view.emb (ix2 r u))
  rw [pos_block (V m c main_v121) (V m c main_v128) _ _ (pt t) (iblk0_at m c t) (iblk1_at m c t) r u]
  refine congrArg _ (funext fun a => Fin.ext ?_)
  match a with
  | ⟨0, _⟩ => show 256 * t.val + r.val = win0_3.index t (0 : Fin 2) * 256 + 1 * r.val; omega
  | ⟨1, _⟩ => show u.val = win0_3.index t (1 : Fin 2) * 1 + 1 * u.val; omega

/-- Point t writes back rows 256·t … of the negative scores. -/
theorem flushed4_eq (c : Dev nD) (t : Fin cfg0.N) :
    (dats m 0 c).flushed 4 t
      = ((cfg0.win 4).blk t).view.read (Elt Ideal) (negScore (V m c main_v121) (V m c main_v135)) := by
  show (cfg0.win 4).cut (grid0.coords t) ((dats m 0 c).after 4 t) = _
  rw [after0_4, out4_eq]
  obtain ⟨-, -, -, -, -, -, -, -, -, e40, e41, -⟩ := idx_facts t
  funext j
  obtain ⟨r, n, rfl⟩ : ∃ (r : Fin 256) (n : Fin 50), j = ix2 r n := ⟨j 0, j 1, eq_ix2 j⟩
  show blkNeg (iblk m c 0 t) (iblk m c 2 t) (ix2 r n)
    = negScore (V m c main_v121) (V m c main_v135) (((cfg0.win 4).blk t).view.emb (ix2 r n))
  rw [neg_block (V m c main_v121) (V m c main_v135) _ _ (pt t) (iblk0_at m c t) (iblk2_at m c t) r n]
  refine congrArg _ (funext fun a => Fin.ext ?_)
  match a with
  | ⟨0, _⟩ => show 256 * t.val + r.val = win0_4.index t (0 : Fin 2) * 256 + 1 * r.val; omega
  | ⟨1, _⟩ => show n.val = win0_4.index t (1 : Fin 2) * 50 + 1 * n.val; omega

/-- Point t writes back slice t of the totals array. -/
theorem flushed5_eq (c : Dev nD) (t : Fin cfg0.N) :
    (dats m 0 c).flushed 5 t
      = ((cfg0.win 5).blk t).view.read (Elt Ideal) (totals (V m c main_v121) (V m c main_v128) (V m c main_v135)) := by
  show (cfg0.win 5).cut (grid0.coords t) ((dats m 0 c).after 5 t) = _
  rw [after0_5, out5_eq]
  obtain ⟨-, -, -, -, -, -, -, -, -, -, -, e50, e51, e52⟩ := idx_facts t
  funext j
  show blkTotal (iblk m c 0 t) (iblk m c 1 t) (iblk m c 2 t)
    = totals (V m c main_v121) (V m c main_v128) (V m c main_v135) (((cfg0.win 5).blk t).view.emb j)
  rw [total_block (V m c main_v121) (V m c main_v128) (V m c main_v135) _ _ _ (pt t)
    (iblk0_at m c t) (iblk1_at m c t) (iblk2_at m c t)]
  unfold totals
  refine congrArg _ (Fin.ext ?_)
  show t.val = win0_5.index t (0 : Fin 3) * 1 + 1 * (j 0).val
  have hj : (j 0).val < 1 := (j 0).isLt
  omega

/-! ## The 16 blocks tile each array -/

/-- Grid point number k. -/
def ptOf (k : Nat) (h : k < 16) : Fin cfg0.N := ⟨k, lt_of_lt_of_eq h N_0.symm⟩

theorem mem_blk3 (t : Fin cfg0.N) (i : S4096x1.Idx) :
    i ∈ ((cfg0.win 3).blk t).view.set ↔ ∀ a : Fin 2, win0_3.index t a * S256x1.size a ≤ (i a).val
      ∧ (i a).val < win0_3.index t a * S256x1.size a + S256x1.size a := by
  show i ∈ ((View.whole main_v136_0).slice (win0_3.rect t)).set ↔ _
  rw [View.set_slice_whole, Rect.mem_set_unit]
  exact Iff.rfl

theorem mem_blk4 (t : Fin cfg0.N) (i : S4096x50.Idx) :
    i ∈ ((cfg0.win 4).blk t).view.set ↔ ∀ a : Fin 2, win0_4.index t a * S256x50.size a ≤ (i a).val
      ∧ (i a).val < win0_4.index t a * S256x50.size a + S256x50.size a := by
  show i ∈ ((View.whole main_v136_1).slice (win0_4.rect t)).set ↔ _
  rw [View.set_slice_whole, Rect.mem_set_unit]
  exact Iff.rfl

theorem mem_blk5 (t : Fin cfg0.N) (i : S16x8x128.Idx) :
    i ∈ ((cfg0.win 5).blk t).view.set ↔ ∀ a : Fin 3, win0_5.index t a * S1x8x128.size a ≤ (i a).val
      ∧ (i a).val < win0_5.index t a * S1x8x128.size a + S1x8x128.size a := by
  show i ∈ ((View.whole main_v136_2).slice (win0_5.rect t)).set ↔ _
  rw [View.set_slice_whole, Rect.mem_set_unit]
  exact Iff.rfl

/-- Row b of the positive scores is written by point b / 256. -/
theorem cover3 (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  refine ⟨ptOf ((i 0).val / 256) (by omega), flush0_3 _, ?_⟩
  obtain ⟨-, -, -, -, -, -, -, e30, e31, -⟩ := idx_facts (ptOf ((i 0).val / 256) (by omega))
  have ev : (ptOf ((i 0).val / 256) (by omega)).val = (i 0).val / 256 := rfl
  rw [mem_blk3]
  intro a
  match a with
  | ⟨0, _⟩ =>
    show win0_3.index _ (0 : Fin 2) * 256 ≤ (i 0).val ∧ (i 0).val < win0_3.index _ (0 : Fin 2) * 256 + 256
    omega
  | ⟨1, _⟩ =>
    show win0_3.index _ (1 : Fin 2) * 1 ≤ (i 1).val ∧ (i 1).val < win0_3.index _ (1 : Fin 2) * 1 + 1
    omega

/-- Row b of the negative scores is written by point b / 256. -/
theorem cover4 (i : S4096x50.Idx) : ∃ t : Fin cfg0.N, (cfg0.win 4).flush t = true ∧ i ∈ ((cfg0.win 4).blk t).view.set := by
  have hi0 : (i 0).val < 4096 := (i 0).isLt
  have hi1 : (i 1).val < 50 := (i 1).isLt
  refine ⟨ptOf ((i 0).val / 256) (by omega), flush0_4 _, ?_⟩
  obtain ⟨-, -, -, -, -, -, -, -, -, e40, e41, -⟩ := idx_facts (ptOf ((i 0).val / 256) (by omega))
  have ev : (ptOf ((i 0).val / 256) (by omega)).val = (i 0).val / 256 := rfl
  rw [mem_blk4]
  intro a
  match a with
  | ⟨0, _⟩ =>
    show win0_4.index _ (0 : Fin 2) * 256 ≤ (i 0).val ∧ (i 0).val < win0_4.index _ (0 : Fin 2) * 256 + 256
    omega
  | ⟨1, _⟩ =>
    show win0_4.index _ (1 : Fin 2) * 50 ≤ (i 1).val ∧ (i 1).val < win0_4.index _ (1 : Fin 2) * 50 + 50
    omega

/-- Slice t of the totals array is written by point t. -/
theorem cover5 (i : S16x8x128.Idx) : ∃ t : Fin cfg0.N, (cfg0.win 5).flush t = true ∧ i ∈ ((cfg0.win 5).blk t).view.set := by
  have hi0 : (i 0).val < 16 := (i 0).isLt
  have hi1 : (i 1).val < 8 := (i 1).isLt
  have hi2 : (i 2).val < 128 := (i 2).isLt
  refine ⟨ptOf (i 0).val hi0, flush0_5 _, ?_⟩
  obtain ⟨-, -, -, -, -, -, -, -, -, -, -, e50, e51, e52⟩ := idx_facts (ptOf (i 0).val hi0)
  have ev : (ptOf (i 0).val hi0).val = (i 0).val := rfl
  rw [mem_blk5]
  intro a
  match a with
  | ⟨0, _⟩ =>
    show win0_5.index _ (0 : Fin 3) * 1 ≤ (i 0).val ∧ (i 0).val < win0_5.index _ (0 : Fin 3) * 1 + 1
    omega
  | ⟨1, _⟩ =>
    show win0_5.index _ (1 : Fin 3) * 8 ≤ (i 1).val ∧ (i 1).val < win0_5.index _ (1 : Fin 3) * 8 + 8
    omega
  | ⟨2, _⟩ =>
    show win0_5.index _ (2 : Fin 3) * 128 ≤ (i 2).val ∧ (i 2).val < win0_5.index _ (2 : Fin 3) * 128 + 128
    omega

/-! ## The three arrays after the run -/

/-- The positive-score array ends holding the positive scores of the arrays the region found. -/
theorem final3 (c : Dev nD) :
    (dats m 0 c).arrAt 3 cfg0.N = posScore (V m c main_v121) (V m c main_v128) :=
  (dats m 0 c).arrAt_eq_of_cover 3 (posScore (V m c main_v121) (V m c main_v128)) (fun t _ => flushed3_eq m c t) cover3

/-- The negative-score array ends holding the negative scores. -/
theorem final4 (c : Dev nD) :
    (dats m 0 c).arrAt 4 cfg0.N = negScore (V m c main_v121) (V m c main_v135) :=
  (dats m 0 c).arrAt_eq_of_cover 4 (negScore (V m c main_v121) (V m c main_v135)) (fun t _ => flushed4_eq m c t) cover4

/-- The totals array ends holding, at (t, ·, ·), block t's share of the total of squares. -/
theorem final5 (c : Dev nD) :
    (dats m 0 c).arrAt 5 cfg0.N = totals (V m c main_v121) (V m c main_v128) (V m c main_v135) :=
  (dats m 0 c).arrAt_eq_of_cover 5 (totals (V m c main_v121) (V m c main_v128) (V m c main_v135))
    (fun t _ => flushed5_eq m c t) cover5

end Cert.Score.Blocks

end
-- ==== Proof.Tail.lean ====
/-
  The blockwise program's last eight host operations, read as one formula.

  The scoring region leaves, through its last window, a 16 × 8 × 128 array whose entry (t, ·, ·) is block t's total of
  squares.  The host then takes the slice [0:16, 0:1, 0:1] of it, reshapes the slice to 16 numbers, adds them up from the zero
  word, multiplies the sum by the word 0x3F000000 and divides by the word 0x45800000.  Entry t of the reshaped slice is the
  array's entry (t, 0, 0) — the slice starts at the origin and the reshape keeps the row-major position —, and a host sum
  over every axis from the zero word is the sum over every index, so the result is the regulariser of ∑ t, T t whenever the
  array's entry (t, 0, 0) is T t.  The two constants stay the words they are.
-/
import proofs.«148021_j6064493822026_2_alg».proof.Proof.Gen.KernelIdeal.Frame
import proofs.«148021_j6064493822026_2_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

open scoped BigOperators

namespace Cert.Score.Tail

open Idealize.ShloMosaic Idealize.ShloMosaic.TcCoe Idealize.ShloMosaic.ValueIdx Idealize.SL.Sem Idealize.ShloMosaic.StableHlo
open Cert.KernelIdeal Cert.KernelIdeal.Gen

/-! ## Which buffers the three results are -/

/-- The region's fourth, fifth and sixth windows write the three result arrays of the call. -/
theorem arrRef_3 : Pipeline.arrRef spec0 3 = main_v136_0 := rfl
theorem arrRef_4 : Pipeline.arrRef spec0 4 = main_v136_1 := rfl
theorem arrRef_5 : Pipeline.arrRef spec0 5 = main_v136_2 := rfl

/-- The last host operation's result is an unscoped buffer that is no window's array: it bypasses the region. -/
theorem v141_mem_restRefs : main_v141 ∈ Pipeline.restRefs sig cfg0.spec :=
  Pipeline.mem_restRefs_of main_v141 (by decide) (by decide)

/-! ## A host sum from the zero word, and a rank-1 index set -/

/-- A host sum over EVERY axis, into the scalar shape, from the zero word: the sum over every index. -/
theorem hostSum_total {s u : Shape} {axes : List (Fin s.rank)} (h' : s.ReducesTo axes ⟨0, ![]⟩)
    (x : FVec Ideal s .f32) (hu : 0 < u.numel) (j : (⟨0, ![]⟩ : Shape).Idx) :
    Host.reduceAdd x (constant (F := Ideal) u .f32 0x00000000#32) h' hu j = ∑ i : s.Idx, x i := by
  show Ideal.hostReduceAdd h' x (Ideal.ofBits .f32 0x00000000#32) j = _
  rw [Ideal.hostReduceAdd_total h' (fun b => b.elim0), Ideal.ofBits_zero_f32, zero_add]

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The slice, the reshape and the sum -/

/-- Entry `t` of the reshaped slice `[0:16, 0:1, 0:1]` of a 16 × 8 × 128 array is the array's entry `(t, 0, 0)`. -/
theorem reshape_slice_apply (X : S16x8x128.Idx → EReal) (hs : S16x8x128.Slices ![0, 0, 0] S16x1x1)
    (hc : S16x1x1.ShapeCasts S16) (t : Fin 16) :
    shapeCast S16 (extractStridedSlice S16x1x1 ![0, 0, 0] X hs) hc (ix1 t) = X (ix3 t 0 0) := by
  refine (shapeCast_apply _ hc (ix1 t) (ix3 t (0 : Fin 1) (0 : Fin 1)) ?_).trans ?_
  · rw [Shape.rowMajor_val_three, Shape.rowMajor_val_one]
    show (t.val * 1 + 0) * 1 + 0 = t.val
    omega
  · refine extractStridedSlice_apply ![0, 0, 0] X hs (ix3 t (0 : Fin 1) (0 : Fin 1)) (ix3 t (0 : Fin 8) (0 : Fin 128)) ?_
    intro a
    match a with
    | ⟨0, _⟩ => show t.val = 0 + t.val; omega
    | ⟨1, _⟩ => show (0 : ℕ) = 0 + 0; rfl
    | ⟨2, _⟩ => show (0 : ℕ) = 0 + 0; rfl

/-- The host sum, from the zero word, of that reshaped slice is the sum of the sixteen entries `(t, 0, 0)`. -/
theorem sum_reshape_slice (X : S16x8x128.Idx → EReal) (hs : S16x8x128.Slices ![0, 0, 0] S16x1x1)
    (hc : S16x1x1.ShapeCasts S16) (hr : S16.ReducesTo [0] S_) (hu : 0 < S_.numel) (T : Fin 16 → EReal)
    (hX : ∀ t : Fin 16, X (ix3 t 0 0) = T t) :
    Host.reduceAdd (shapeCast S16 (extractStridedSlice S16x1x1 ![0, 0, 0] X hs) hc : FVec Ideal S16 .f32)
      (constant (F := Ideal) S_ .f32 0x00000000#32) hr hu = fun _ => ∑ t : Fin 16, T t := by
  funext j
  refine (hostSum_total hr _ hu j).trans ?_
  refine (sum_idx1 _).trans ?_
  refine Finset.sum_congr rfl fun t _ => ?_
  rw [reshape_slice_apply, hX]

/-! ## The tail -/

/-- The regulariser the blockwise program returns: if entry `(t, 0, 0)` of the array the region's last window writes is
    block `t`'s total `T t`, the tail's last result is one half of `∑ t, T t` divided by 4096. -/
theorem tail_reg_at (m : (ℓ : Loc nD τ sig) → Buf (Elt Ideal) ℓ) (c : Dev nD) (T : Fin 16 → EReal)
    (h5 : ∀ t : Fin 16, ((dats (F := Ideal) m 0 c).arrAt 5 cfg0.N : S16x8x128.Idx → EReal) (ix3 t 0 0) = T t) :
    Pipeline.afterTail₀ cfgs (dats (F := Ideal) m) 0 (V0 m) [hostOps1] c main_v141 = Cert.Score.regOf (∑ t : Fin 16, T t) := by
  unfold Pipeline.afterTail₀
  show StableHlo.after hostOps1 _ (Proc.devRef .tc main_v141) = _
  after_results
  have hW : Pipeline.withArrays (cfgs 0).spec c (V0 m c) (fun w => (dats (F := Ideal) m 0 c).arrAt w (cfgs 0).N)
      (Proc.devRef .tc main_v136_2) = (dats (F := Ideal) m 0 c).arrAt 5 cfg0.N :=
    Pipeline.withArrays_arr spec0 launch0.win.arr_inj c _ _ 5
  rw [hW]
  unfold Cert.Score.regOf
  refine congrArg (fun s => Host.divf (F := Ideal) (mulf (constant (F := Ideal) S_ .f32 0x3F000000#32) s)
    (constant (F := Ideal) S_ .f32 0x45800000#32)) ?_
  exact sum_reshape_slice _ _ _ _ _ T h5

/-- The same from the whole array: the region's last window leaves block `t`'s total at every entry `(t, ·, ·)`. -/
theorem tail_reg (m : (ℓ : Loc nD τ sig) → Buf (Elt Ideal) ℓ) (c : Dev nD) (T : Fin 16 → EReal)
    (h5 : ((dats (F := Ideal) m 0 c).arrAt 5 cfg0.N : S16x8x128.Idx → EReal) = fun i => T (i 0)) :
    Pipeline.afterTail₀ cfgs (dats (F := Ideal) m) 0 (V0 m) [hostOps1] c main_v141 = Cert.Score.regOf (∑ t : Fin 16, T t) :=
  tail_reg_at m c T fun t => congrFun h5 (ix3 t 0 0)

end Cert.Score.Tail

end
-- ==== Proof.SumLaw.lean ====
/-
  The regrouping law: totalling the squares block by block gives the same extended real as totalling them array by array.

  A sum over a rank-2 (rank-3) index set is the iterated sum over its coordinates; the 4096 rows are the 16 blocks of 256
  consecutive rows, and the 50 negatives the 5 groups of 10 consecutive negatives, each through a bijection, so a sum over the
  rows (negatives) is the double sum over block and row-in-block (group and negative-in-group).  Nothing else is used than that
  addition of extended reals is commutative and associative: sums split over `+`, and two sums may change places.
-/
import proofs.«148021_j6064493822026_2_alg».proof.Proof.Spec
import Idealize.ShloMosaic.Lib.ValueIdx

noncomputable section

open scoped BigOperators

namespace Cert.Score

open Idealize.ShloMosaic Idealize.ShloMosaic.ValueIdx

/-! ## A rank-3 index set is the product of its three coordinate ranges -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-! ## Rows by blocks, negatives by groups -/

/-- The 4096 rows are the 16 blocks of 256 rows: `(t, r)` is row `256 t + r`, and row `b` is `(b / 256, b % 256)`. -/
def blockEquiv : Fin 16 × Fin 256 ≃ Fin 4096 where
  toFun x := blockRow x.1 x.2
  invFun b := (⟨b.val / 256, by have := b.isLt; omega⟩, ⟨b.val % 256, by omega⟩)
  left_inv x := by
    obtain ⟨t, r⟩ := x
    have ht := t.isLt
    have hr := r.isLt
    refine Prod.ext (Fin.ext ?_) (Fin.ext ?_)
    · show (256 * t.val + r.val) / 256 = t.val
      omega
    · show (256 * t.val + r.val) % 256 = r.val
      omega
  right_inv b := by
    refine Fin.ext ?_
    show 256 * (b.val / 256) + b.val % 256 = b.val
    omega

/-- The 50 negatives are the 5 groups of 10: `(g, n)` is negative `10 g + n`, and negative `m` is `(m / 10, m % 10)`. -/
def groupEquiv : Fin 5 × Fin 10 ≃ Fin 50 where
  toFun x := groupNeg x.1 x.2
  invFun m := (⟨m.val / 10, by have := m.isLt; omega⟩, ⟨m.val % 10, by omega⟩)
  left_inv x := by
    obtain ⟨g, n⟩ := x
    have hg := g.isLt
    have hn := n.isLt
    refine Prod.ext (Fin.ext ?_) (Fin.ext ?_)
    · show (10 * g.val + n.val) / 10 = g.val
      omega
    · show (10 * g.val + n.val) % 10 = n.val
      omega
  right_inv m := by
    refine Fin.ext ?_
    show 10 * (m.val / 10) + m.val % 10 = m.val
    omega

/-- A sum over the 4096 rows is the sum over the blocks of the sums over each block's rows. -/
theorem sum_blocks {M : Type*} [AddCommMonoid M] (f : Fin 4096 → M) :
    ∑ b, f b = ∑ t : Fin 16, ∑ r : Fin 256, f (blockRow t r) := by
  rw [← Equiv.sum_comp blockEquiv f, Fintype.sum_prod_type]
  rfl

/-- A sum over the 50 negatives is the sum over the groups of the sums over each group's negatives. -/
theorem sum_groups {M : Type*} [AddCommMonoid M] (f : Fin 50 → M) :
    ∑ m, f m = ∑ g : Fin 5, ∑ n : Fin 10, f (groupNeg g n) := by
  rw [← Equiv.sum_comp groupEquiv f, Fintype.sum_prod_type]
  rfl

/-! ## The squares of one array, block by block -/

/-- The block totals of a row array's squares add up to the total of all its squares. -/
theorem sum_sqBlock (u : Rows) : ∑ t : Fin 16, sqBlock u t = ∑ i, u i * u i := by
  rw [sum_idx2 (fun i => u i * u i), sum_blocks (fun b => ∑ d : Fin 64, u (ix2 b d) * u (ix2 b d))]
  rfl

/-- The block-and-group totals of the negatives' squares add up to the total of all their squares: within a block the sum
    over the rows and the sum over the groups change places. -/
theorem sum_sqGroup (q : Tables) : ∑ t : Fin 16, ∑ g : Fin 5, sqGroup q t g = ∑ i, q i * q i := by
  rw [sum_idx3 (fun i => q i * q i),
    sum_blocks (fun b => ∑ m : Fin 50, ∑ d : Fin 64, q (ix3 b m d) * q (ix3 b m d))]
  refine Finset.sum_congr rfl fun t _ => ?_
  unfold sqGroup
  rw [Finset.sum_comm]
  refine Finset.sum_congr rfl fun r _ => ?_
  rw [sum_groups (fun m => ∑ d : Fin 64, q (ix3 (blockRow t r) m d) * q (ix3 (blockRow t r) m d))]

/-! ## The law -/

/-- The sixteen block totals add up to the total of all squares, whatever the entries are. -/
theorem blockTotal_sum (u p : Rows) (q : Tables) : ∑ t : Fin 16, blockTotal u p q t = sqTotal u p q := by
  unfold blockTotal sqTotal
  rw [← sum_sqBlock u, ← sum_sqBlock p, ← sum_sqGroup q]
  simp only [Fin.sum_univ_five, Finset.sum_add_distrib, add_assoc]

end Cert.Score

end
-- ==== Proof.KernelRun.lean ====
/-
  The blockwise program's run, read as mathematics.

  Every weakly fair execution terminates, and then: the first result array holds the positive scores and the second the
  negative scores of the three arrays `u`, `p`, `q` the scoring stage was entered with; the third result, computed by
  the operations after the stage from the 16 block totals, is the regulariser of `u`, `p`, `q` — the 16 block totals
  add up to the total of all squares; and the seven argument arrays are unchanged.
-/
import proofs.«148021_j6064493822026_2_alg».proof.Proof.Gen.KernelIdeal.Frame
import proofs.«148021_j6064493822026_2_alg».proof.Proof.Blocks
import proofs.«148021_j6064493822026_2_alg».proof.Proof.Tail
import proofs.«148021_j6064493822026_2_alg».proof.Proof.SumLaw
import proofs.«148021_j6064493822026_2_alg».proof.Proof.Spec

set_option maxRecDepth 16384

noncomputable section

open scoped BigOperators

namespace Cert.Score.Run

open Idealize.ShloMosaic Idealize.ShloMosaic.ValueIdx Idealize.ShloMosaic.Pipeline Idealize.SL.Sem
open Cert.KernelIdeal Cert.KernelIdeal.Gen Cert.Score Cert.Score.Blocks

variable (m : (ℓ : Loc nD τ sig) → Buf (Elt Ideal) ℓ) (ρ : Dev nD → PrngReg)

/-- The third result: the operations after the stage turn the 16 block totals into the regulariser. -/
theorem reg_eq (c : Dev nD) :
    Pipeline.afterTail₀ cfgs (dats (F := Ideal) m) 0 (V0 m) [hostOps1] c main_v141
      = regLoss (V m c main_v121) (V m c main_v128) (V m c main_v135) := by
  rw [Cert.Score.Tail.tail_reg m c (fun t => blockTotal (V m c main_v121) (V m c main_v128) (V m c main_v135) t) (final5 m c)]
  unfold regLoss
  rw [blockTotal_sum]

/-- The run. -/
theorem run : θ_run defs (onTc (τ := τ) (main (F := Ideal))) ⟨m, fun _ => 0, ρ⟩ (fun r => ∀ c : Dev nD,
      r.2.mem ((c.tc : Thread nD τ).loc main_v136_0) = posScore (V m c main_v121) (V m c main_v128)
      ∧ r.2.mem ((c.tc : Thread nD τ).loc main_v136_1) = negScore (V m c main_v121) (V m c main_v135)
      ∧ r.2.mem ((c.tc : Thread nD τ).loc main_v141) = regLoss (V m c main_v121) (V m c main_v128) (V m c main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).1 3).trans (final3 m c),
      ((h c).1 4).trans (final4 m c),
      ((h c).2 main_v141 Cert.Score.Tail.v141_mem_restRefs).trans (reg_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

end Cert.Score.Run

end
-- ==== Proof.RefRead.lean ====
/-
  The reference's three results read index by index, for arbitrary input arrays.

  A host sum over one axis, started from the zero word, is at each kept index the sum over that axis's coordinates of the
  operand; a host sum over every axis is the sum over every index.  A broadcast along named axes reads the operand at the
  result index's coordinates on those axes (and at 0 on an operand axis of extent one).  Read this way the first result is
  the row-by-row dot product of `u` and `p`, the second the dot product of each row of `u` with each of its rows of `q`,
  and the third one half of the three totals of squares, divided by 4096 — the two constants left as the words they are.
-/
import proofs.«148021_j6064493822026_2_alg».proof.ReferenceIdeal
import proofs.«148021_j6064493822026_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Score.Ref

open Idealize.ShloMosaic Idealize.ShloMosaic.ValueIdx Cert.ReferenceIdeal
open Cert.ReferenceIdeal.Facts₀

variable [Cert.ReferenceIdeal.Facts]

/-! ## The host's sums from the zero word -/

/-- A host sum over ONE axis from the zero word: at each kept index, the sum over that axis's coordinates. -/
theorem hostSum_single {s t : Shape} {a : Fin s.rank} (h' : s.ReducesTo [a] t) (h : s.Reduces [a] t)
    (x : FVec Ideal s .f32) (hu : 0 < S_.numel) (j : t.Idx) :
    Host.reduceAdd x (constant (F := Ideal) S_ .f32 0x00000000#32) h' hu j = ∑ k : Fin (s.size a), x (h.lift j k) := by
  show Ideal.hostReduceAdd h' x (Ideal.ofBits .f32 0x00000000#32) j = _
  rw [Ideal.hostReduceAdd_single h' h, Ideal.ofBits_zero_f32, zero_add]

/-- A host sum over EVERY axis from the zero word: the sum over every index. -/
theorem hostSum_total {s : Shape} {axes : List (Fin s.rank)} (h' : s.ReducesTo axes S_)
    (x : FVec Ideal s .f32) (hu : 0 < S_.numel) (j : S_.Idx) :
    Host.reduceAdd x (constant (F := Ideal) S_ .f32 0x00000000#32) h' hu j = ∑ i : s.Idx, x i := by
  show Ideal.hostReduceAdd h' x (Ideal.ofBits .f32 0x00000000#32) j = _
  rw [Ideal.hostReduceAdd_total h' (fun b => b.elim0), Ideal.ofBits_zero_f32, zero_add]

/-! ## The positive scores -/

theorem ref_pos (u p : FVec Ideal S4096x64 .f32) :
    broadcastInDim S4096x1 ![0] bcast_S4096_S4096x1_0 (Host.reduceAdd (mulf u p) (constant (F := Ideal) S_ .f32 0x00000000#32) reducesTo_S4096x64_S4096_d1 h_S_) = Cert.Score.posScore u p := by
  funext i
  obtain ⟨b, z, rfl⟩ : ∃ (b : Fin 4096) (z : Fin 1), i = ix2 b z := ⟨i 0, i 1, eq_ix2 i⟩
  have hR : S4096x64.Reduces [1] S4096 := by decide
  have e1 := broadcastInDim_apply ![0] bcast_S4096_S4096x1_0
    (Host.reduceAdd (mulf u p) (constant (F := Ideal) S_ .f32 0x00000000#32) reducesTo_S4096x64_S4096_d1 h_S_) (ix2 b z) (ix1 b) (by
      intro a
      match a with
      | ⟨0, _⟩ =>
        show b.val = if (4096 : ℕ) = 1 then 0 else b.val
        rw [if_neg (by decide)])
  rw [e1, hostSum_single reducesTo_S4096x64_S4096_d1 hR]
  show ∑ d : Fin 64, mulf u p (hR.lift (ix1 b) d) = ∑ d : Fin 64, u (ix2 b d) * p (ix2 b d)
  refine Finset.sum_congr rfl fun d _ => ?_
  have hl : hR.lift (ix1 b) d = ix2 b d := by
    funext a
    match a with
    | ⟨0, _⟩ => exact Fin.ext rfl
    | ⟨1, _⟩ => exact Fin.ext rfl
  exact congrArg (mulf u p) hl

/-! ## The negative scores -/

theorem ref_neg (u : FVec Ideal S4096x64 .f32) (q : FVec Ideal S4096x50x64 .f32) :
    Host.reduceAdd (mulf (broadcastInDim S4096x50x64 ![0, 1, 2] bcast_S4096x1x64_S4096x50x64_0_1_2 (broadcastInDim S4096x1x64 ![0, 2] bcast_S4096x64_S4096x1x64_0_2 u)) q) (constant (F := Ideal) S_ .f32 0x00000000#32) reducesTo_S4096x50x64_S4096x50_d2 h_S_ = Cert.Score.negScore u q := by
  funext i
  obtain ⟨b, n, rfl⟩ : ∃ (b : Fin 4096) (n : Fin 50), i = ix2 b n := ⟨i 0, i 1, eq_ix2 i⟩
  have hR : S4096x50x64.Reduces [2] S4096x50 := by decide
  rw [hostSum_single reducesTo_S4096x50x64_S4096x50_d2 hR]
  show ∑ d : Fin 64, mulf (broadcastInDim S4096x50x64 ![0, 1, 2] bcast_S4096x1x64_S4096x50x64_0_1_2 (broadcastInDim S4096x1x64 ![0, 2] bcast_S4096x64_S4096x1x64_0_2 u)) q (hR.lift (ix2 b n) d)
      = ∑ d : Fin 64, u (ix2 b d) * q (ix3 b n d)
  refine Finset.sum_congr rfl fun d _ => ?_
  have hl : hR.lift (ix2 b n) d = ix3 b n d := by
    funext a
    match a with
    | ⟨0, _⟩ => exact Fin.ext rfl
    | ⟨1, _⟩ => exact Fin.ext rfl
    | ⟨2, _⟩ => exact Fin.ext rfl
  have e2 := broadcastInDim_apply ![0, 1, 2] bcast_S4096x1x64_S4096x50x64_0_1_2
    (broadcastInDim S4096x1x64 ![0, 2] bcast_S4096x64_S4096x1x64_0_2 u) (ix3 b n d) (ix3 b (0 : Fin 1) d) (by
      intro a
      match a with
      | ⟨0, _⟩ =>
        show b.val = if (4096 : ℕ) = 1 then 0 else b.val
        rw [if_neg (by decide)]
      | ⟨1, _⟩ =>
        show (0 : ℕ) = if (1 : ℕ) = 1 then 0 else n.val
        rw [if_pos rfl]
      | ⟨2, _⟩ =>
        show d.val = if (64 : ℕ) = 1 then 0 else d.val
        rw [if_neg (by decide)])
  have e1 := broadcastInDim_apply ![0, 2] bcast_S4096x64_S4096x1x64_0_2 u (ix3 b (0 : Fin 1) d) (ix2 b d) (by
      intro a
      match a with
      | ⟨0, _⟩ =>
        show b.val = if (4096 : ℕ) = 1 then 0 else b.val
        rw [if_neg (by decide)]
      | ⟨1, _⟩ =>
        show d.val = if (64 : ℕ) = 1 then 0 else d.val
        rw [if_neg (by decide)])
  rw [hl]
  show broadcastInDim S4096x50x64 ![0, 1, 2] bcast_S4096x1x64_S4096x50x64_0_1_2 (broadcastInDim S4096x1x64 ![0, 2] bcast_S4096x64_S4096x1x64_0_2 u) (ix3 b n d) * q (ix3 b n d)
      = u (ix2 b d) * q (ix3 b n d)
  rw [e2, e1]

/-! ## The regulariser -/

theorem ref_reg (u p : FVec Ideal S4096x64 .f32) (q : FVec Ideal S4096x50x64 .f32) :
    Host.divf (mulf (constant (F := Ideal) S_ .f32 0x3F000000#32) (addf (addf (Host.reduceAdd (mulf u u) (constant (F := Ideal) S_ .f32 0x00000000#32) reducesTo_S4096x64_S_d0_1 h_S_) (Host.reduceAdd (mulf p p) (constant (F := Ideal) S_ .f32 0x00000000#32) reducesTo_S4096x64_S_d0_1 h_S_)) (Host.reduceAdd (mulf q q) (constant (F := Ideal) S_ .f32 0x00000000#32) reducesTo_S4096x50x64_S_d0_1_2 h_S_))) (constant (F := Ideal) S_ .f32 0x45800000#32) = Cert.Score.regLoss u p q := by
  have hsum : addf (addf (Host.reduceAdd (mulf u u) (constant (F := Ideal) S_ .f32 0x00000000#32) reducesTo_S4096x64_S_d0_1 h_S_) (Host.reduceAdd (mulf p p) (constant (F := Ideal) S_ .f32 0x00000000#32) reducesTo_S4096x64_S_d0_1 h_S_)) (Host.reduceAdd (mulf q q) (constant (F := Ideal) S_ .f32 0x00000000#32) reducesTo_S4096x50x64_S_d0_1_2 h_S_)
      = fun _ => Cert.Score.sqTotal u p q := by
    funext j
    rw [addf_apply, addf_apply, hostSum_total, hostSum_total, hostSum_total]
    rfl
  rw [hsum]
  rfl

end Cert.Score.Ref

end
-- ==== Proof.Head.lean ====
import proofs.«148021_j6064493822026_2_alg».proof.Proof.Gen.KernelIdeal.Frame
import proofs.«148021_j6064493822026_2_alg».proof.Proof.Gen.ReferenceIdeal.Run

/-!
# The shared head

Both programs begin with the same host operations: three rounds of gather / scale / scatter-add over the
graph, then the three gathers that produce the arrays `u` (4096×64), `p` (4096×64) and `q` (4096×50×64) the
scoring stage consumes. This module reads the first program's operations before its scoring region window by
window, as composed terms of the seven arguments, and shows that from memories agreeing on the arguments the
three arrays it enters the region with are the second program's named head terms.
-/

noncomputable section

namespace Cert.Score.KHead

open Cert.KernelIdeal Cert.KernelIdeal.Gen Idealize.ShloMosaic Idealize.ShloMosaic.TcCoe Idealize.SL.Sem Idealize.ShloMosaic.StableHlo

variable {F : FTy → Type} [FloatOps F]

/-! ## The first program's head, as composed terms of the arguments -/

set_option maxRecDepth 8192 in
/-- `main_v0`'s composed term of the arguments (named: it is used 2 times). -/
def kres_main_v0 (V0 : Valuation τ sig (Elt F)) : (Proc.devRef .tc main_v0 : DevRef τ sig).ty.Contents (Elt F) :=
  broadcastInDim S2000000 ![] bcast_S_S2000000 (constant S_ .f32 0x3F800000#32)

set_option maxRecDepth 8192 in
/-- `main_v26`'s composed term of the arguments (named: it is used 6 times). -/
def kres_main_v26 (V0 : Valuation τ sig (Elt F)) : (Proc.devRef .tc main_v26 : DevRef τ sig).ty.Contents (Elt F) :=
  Host.rsqrt (mulf (Host.gather gather_S100000_S2000000x1_S2000000_n_0_n_n_0_1_1 (maximumf (Host.scatterAdd scatter_S100000_S2000000x1_S2000000_n_0_0_1 (broadcastInDim S100000 ![] bcast_S_S100000 (constant S_ .f32 0x00000000#32)) (broadcastInDim S2000000x1 ![0] bcast_S2000000_S2000000x1_0 (V0 (Proc.devRef .tc main_arg2))) (kres_main_v0 V0)) (broadcastInDim S100000 ![] bcast_S_S100000 (constant S_ .f32 0x3F800000#32))) (broadcastInDim S2000000x1 ![0] bcast_S2000000_S2000000x1_0 (select (cmpi .slt (V0 (Proc.devRef .tc main_arg2)) (broadcastInDim S2000000 ![] bcast_S_S2000000 (constantI S_ 32 0#32))) (addi (V0 (Proc.devRef .tc main_arg2)) (broadcastInDim S2000000 ![] bcast_S_S2000000 (constantI S_ 32 100000#32))) (V0 (Proc.devRef .tc main_arg2))))) (Host.gather gather_S50000_S2000000x1_S2000000_n_0_n_n_0_1_1 (maximumf (Host.scatterAdd scatter_S50000_S2000000x1_S2000000_n_0_0_1 (broadcastInDim S50000 ![] bcast_S_S50000 (constant S_ .f32 0x00000000#32)) (broadcastInDim S2000000x1 ![0] bcast_S2000000_S2000000x1_0 (V0 (Proc.devRef .tc main_arg3))) (kres_main_v0 V0)) (broadcastInDim S50000 ![] bcast_S_S50000 (constant S_ .f32 0x3F800000#32))) (broadcastInDim S2000000x1 ![0] bcast_S2000000_S2000000x1_0 (select (cmpi .slt (V0 (Proc.devRef .tc main_arg3)) (broadcastInDim S2000000 ![] bcast_S_S2000000 (constantI S_ 32 0#32))) (addi (V0 (Proc.devRef .tc main_arg3)) (broadcastInDim S2000000 ![] bcast_S_S2000000 (constantI S_ 32 50000#32))) (V0 (Proc.devRef .tc main_arg3))))))

set_option maxRecDepth 8192 in
/-- `main_v39`'s composed term of the arguments (named: it is used 2 times). -/
def kres_main_v39 (V0 : Valuation τ sig (Elt F)) : (Proc.devRef .tc main_v39 : DevRef τ sig).ty.Contents (Elt F) :=
  Host.scatterAdd scatter_S100000x64_S2000000x1_S2000000x64_1_0_0_1 (broadcastInDim S100000x64 ![] bcast_S_S100000x64 (constant S_ .f32 0x00000000#32)) (broadcastInDim S2000000x1 ![0] bcast_S2000000_S2000000x1_0 (V0 (Proc.devRef .tc main_arg2))) (mulf (Host.gather gather_S50000x64_S2000000x1_S2000000x64_1_0_n_n_0_1_164 (V0 (Proc.devRef .tc main_arg1)) (broadcastInDim S2000000x1 ![0] bcast_S2000000_S2000000x1_0 (select (cmpi .slt (V0 (Proc.devRef .tc main_arg3)) (broadcastInDim S2000000 ![] bcast_S_S2000000 (constantI S_ 32 0#32))) (addi (V0 (Proc.devRef .tc main_arg3)) (broadcastInDim S2000000 ![] bcast_S_S2000000 (constantI S_ 32 50000#32))) (V0 (Proc.devRef .tc main_arg3))))) (broadcastInDim S2000000x64 ![0, 1] bcast_S2000000x1_S2000000x64_0_1 (broadcastInDim S2000000x1 ![0] bcast_S2000000_S2000000x1_0 (kres_main_v26 V0))))

set_option maxRecDepth 8192 in
/-- `main_v52`'s composed term of the arguments (named: it is used 2 times). -/
def kres_main_v52 (V0 : Valuation τ sig (Elt F)) : (Proc.devRef .tc main_v52 : DevRef τ sig).ty.Contents (Elt F) :=
  Host.scatterAdd scatter_S50000x64_S2000000x1_S2000000x64_1_0_0_1 (broadcastInDim S50000x64 ![] bcast_S_S50000x64 (constant S_ .f32 0x00000000#32)) (broadcastInDim S2000000x1 ![0] bcast_S2000000_S2000000x1_0 (V0 (Proc.devRef .tc main_arg3))) (mulf (Host.gather gather_S100000x64_S2000000x1_S2000000x64_1_0_n_n_0_1_164 (V0 (Proc.devRef .tc main_arg0)) (broadcastInDim S2000000x1 ![0] bcast_S2000000_S2000000x1_0 (select (cmpi .slt (V0 (Proc.devRef .tc main_arg2)) (broadcastInDim S2000000 ![] bcast_S_S2000000 (constantI S_ 32 0#32))) (addi (V0 (Proc.devRef .tc main_arg2)) (broadcastInDim S2000000 ![] bcast_S_S2000000 (constantI S_ 32 100000#32))) (V0 (Proc.devRef .tc main_arg2))))) (broadcastInDim S2000000x64 ![0, 1] bcast_S2000000x1_S2000000x64_0_1 (broadcastInDim S2000000x1 ![0] bcast_S2000000_S2000000x1_0 (kres_main_v26 V0))))

set_option maxRecDepth 8192 in
/-- `main_v67`'s composed term of the arguments (named: it is used 2 times). -/
def kres_main_v67 (V0 : Valuation τ sig (Elt F)) : (Proc.devRef .tc main_v67 : DevRef τ sig).ty.Contents (Elt F) :=
  Host.scatterAdd scatter_S100000x64_S2000000x1_S2000000x64_1_0_0_1 (broadcastInDim S100000x64 ![] bcast_S_S100000x64 (constant S_ .f32 0x00000000#32)) (broadcastInDim S2000000x1 ![0] bcast_S2000000_S2000000x1_0 (V0 (Proc.devRef .tc main_arg2))) (mulf (Host.gather gather_S50000x64_S2000000x1_S2000000x64_1_0_n_n_0_1_164 (kres_main_v52 V0) (broadcastInDim S2000000x1 ![0] bcast_S2000000_S2000000x1_0 (select (cmpi .slt (V0 (Proc.devRef .tc main_arg3)) (broadcastInDim S2000000 ![] bcast_S_S2000000 (constantI S_ 32 0#32))) (addi (V0 (Proc.devRef .tc main_arg3)) (broadcastInDim S2000000 ![] bcast_S_S2000000 (constantI S_ 32 50000#32))) (V0 (Proc.devRef .tc main_arg3))))) (broadcastInDim S2000000x64 ![0, 1] bcast_S2000000x1_S2000000x64_0_1 (broadcastInDim S2000000x1 ![0] bcast_S2000000_S2000000x1_0 (kres_main_v26 V0))))

set_option maxRecDepth 8192 in
/-- `main_v80`'s composed term of the arguments (named: it is used 2 times). -/
def kres_main_v80 (V0 : Valuation τ sig (Elt F)) : (Proc.devRef .tc main_v80 : DevRef τ sig).ty.Contents (Elt F) :=
  Host.scatterAdd scatter_S50000x64_S2000000x1_S2000000x64_1_0_0_1 (broadcastInDim S50000x64 ![] bcast_S_S50000x64 (constant S_ .f32 0x00000000#32)) (broadcastInDim S2000000x1 ![0] bcast_S2000000_S2000000x1_0 (V0 (Proc.devRef .tc main_arg3))) (mulf (Host.gather gather_S100000x64_S2000000x1_S2000000x64_1_0_n_n_0_1_164 (kres_main_v39 V0) (broadcastInDim S2000000x1 ![0] bcast_S2000000_S2000000x1_0 (select (cmpi .slt (V0 (Proc.devRef .tc main_arg2)) (broadcastInDim S2000000 ![] bcast_S_S2000000 (constantI S_ 32 0#32))) (addi (V0 (Proc.devRef .tc main_arg2)) (broadcastInDim S2000000 ![] bcast_S_S2000000 (constantI S_ 32 100000#32))) (V0 (Proc.devRef .tc main_arg2))))) (broadcastInDim S2000000x64 ![0, 1] bcast_S2000000x1_S2000000x64_0_1 (broadcastInDim S2000000x1 ![0] bcast_S2000000_S2000000x1_0 (kres_main_v26 V0))))

set_option maxRecDepth 8192 in
/-- `main_v114`'s composed term of the arguments (named: it is used 2 times). -/
def kres_main_v114 (V0 : Valuation τ sig (Elt F)) : (Proc.devRef .tc main_v114 : DevRef τ sig).ty.Contents (Elt F) :=
  mulf (addf (addf (addf (V0 (Proc.devRef .tc main_arg1)) (kres_main_v52 V0)) (kres_main_v80 V0)) (Host.scatterAdd scatter_S50000x64_S2000000x1_S2000000x64_1_0_0_1 (broadcastInDim S50000x64 ![] bcast_S_S50000x64 (constant S_ .f32 0x00000000#32)) (broadcastInDim S2000000x1 ![0] bcast_S2000000_S2000000x1_0 (V0 (Proc.devRef .tc main_arg3))) (mulf (Host.gather gather_S100000x64_S2000000x1_S2000000x64_1_0_n_n_0_1_164 (kres_main_v67 V0) (broadcastInDim S2000000x1 ![0] bcast_S2000000_S2000000x1_0 (select (cmpi .slt (V0 (Proc.devRef .tc main_arg2)) (broadcastInDim S2000000 ![] bcast_S_S2000000 (constantI S_ 32 0#32))) (addi (V0 (Proc.devRef .tc main_arg2)) (broadcastInDim S2000000 ![] bcast_S_S2000000 (constantI S_ 32 100000#32))) (V0 (Proc.devRef .tc main_arg2))))) (broadcastInDim S2000000x64 ![0, 1] bcast_S2000000x1_S2000000x64_0_1 (broadcastInDim S2000000x1 ![0] bcast_S2000000_S2000000x1_0 (kres_main_v26 V0)))))) (broadcastInDim S50000x64 ![] bcast_S_S50000x64 (constant S_ .f32 0x3E800000#32))

set_option maxRecDepth 8192 in
/-- `main_v121`'s composed term of the arguments (named: it is used 4 times). -/
def kres_main_v121 (V0 : Valuation τ sig (Elt F)) : (Proc.devRef .tc main_v121 : DevRef τ sig).ty.Contents (Elt F) :=
  Host.gather gather_S100000x64_S4096x1_S4096x64_1_0_n_n_0_1_164 (mulf (addf (addf (addf (V0 (Proc.devRef .tc main_arg0)) (kres_main_v39 V0)) (kres_main_v67 V0)) (Host.scatterAdd scatter_S100000x64_S2000000x1_S2000000x64_1_0_0_1 (broadcastInDim S100000x64 ![] bcast_S_S100000x64 (constant S_ .f32 0x00000000#32)) (broadcastInDim S2000000x1 ![0] bcast_S2000000_S2000000x1_0 (V0 (Proc.devRef .tc main_arg2))) (mulf (Host.gather gather_S50000x64_S2000000x1_S2000000x64_1_0_n_n_0_1_164 (kres_main_v80 V0) (broadcastInDim S2000000x1 ![0] bcast_S2000000_S2000000x1_0 (select (cmpi .slt (V0 (Proc.devRef .tc main_arg3)) (broadcastInDim S2000000 ![] bcast_S_S2000000 (constantI S_ 32 0#32))) (addi (V0 (Proc.devRef .tc main_arg3)) (broadcastInDim S2000000 ![] bcast_S_S2000000 (constantI S_ 32 50000#32))) (V0 (Proc.devRef .tc main_arg3))))) (broadcastInDim S2000000x64 ![0, 1] bcast_S2000000x1_S2000000x64_0_1 (broadcastInDim S2000000x1 ![0] bcast_S2000000_S2000000x1_0 (kres_main_v26 V0)))))) (broadcastInDim S100000x64 ![] bcast_S_S100000x64 (constant S_ .f32 0x3E800000#32))) (broadcastInDim S4096x1 ![0] bcast_S4096_S4096x1_0 (select (cmpi .slt (V0 (Proc.devRef .tc main_arg4)) (broadcastInDim S4096 ![] bcast_S_S4096 (constantI S_ 32 0#32))) (addi (V0 (Proc.devRef .tc main_arg4)) (broadcastInDim S4096 ![] bcast_S_S4096 (constantI S_ 32 100000#32))) (V0 (Proc.devRef .tc main_arg4))))

set_option maxRecDepth 8192 in
/-- `main_v128`'s composed term of the arguments (named: it is used 3 times). -/
def kres_main_v128 (V0 : Valuation τ sig (Elt F)) : (Proc.devRef .tc main_v128 : DevRef τ sig).ty.Contents (Elt F) :=
  Host.gather gather_S50000x64_S4096x1_S4096x64_1_0_n_n_0_1_164 (kres_main_v114 V0) (broadcastInDim S4096x1 ![0] bcast_S4096_S4096x1_0 (select (cmpi .slt (V0 (Proc.devRef .tc main_arg5)) (broadcastInDim S4096 ![] bcast_S_S4096 (constantI S_ 32 0#32))) (addi (V0 (Proc.devRef .tc main_arg5)) (broadcastInDim S4096 ![] bcast_S_S4096 (constantI S_ 32 50000#32))) (V0 (Proc.devRef .tc main_arg5))))

set_option maxRecDepth 8192 in
/-- `main_v135`'s composed term of the arguments (named: it is used 3 times). -/
def kres_main_v135 (V0 : Valuation τ sig (Elt F)) : (Proc.devRef .tc main_v135 : DevRef τ sig).ty.Contents (Elt F) :=
  Host.gather gather_S50000x64_S4096x50x1_S4096x50x64_2_0_n_n_0_2_164 (kres_main_v114 V0) (broadcastInDim S4096x50x1 ![0, 1] bcast_S4096x50_S4096x50x1_0_1 (select (cmpi .slt (V0 (Proc.devRef .tc main_arg6)) (broadcastInDim S4096x50 ![] bcast_S_S4096x50 (constantI S_ 32 0#32))) (addi (V0 (Proc.devRef .tc main_arg6)) (broadcastInDim S4096x50 ![] bcast_S_S4096x50 (constantI S_ 32 50000#32))) (V0 (Proc.devRef .tc main_arg6))))

/-! ## The windows, read one at a time -/

/-- The buffer contents after the first window of the operations before the region. -/
def kval1 (V0 : Valuation τ sig (Elt F)) : Valuation τ sig (Elt F) := after main_part0_ops0 V0
theorem kval1_main_arg0 (V0 : Valuation τ sig (Elt F)) : kval1 V0 (no_index (Proc.devRef .tc main_arg0)) = V0 (Proc.devRef .tc main_arg0) := by
  unfold kval1
  simp only [main_part0_ops0]
  after_results_simp
theorem kval1_main_arg1 (V0 : Valuation τ sig (Elt F)) : kval1 V0 (no_index (Proc.devRef .tc main_arg1)) = V0 (Proc.devRef .tc main_arg1) := by
  unfold kval1
  simp only [main_part0_ops0]
  after_results_simp
theorem kval1_main_arg2 (V0 : Valuation τ sig (Elt F)) : kval1 V0 (no_index (Proc.devRef .tc main_arg2)) = V0 (Proc.devRef .tc main_arg2) := by
  unfold kval1
  simp only [main_part0_ops0]
  after_results_simp
theorem kval1_main_arg3 (V0 : Valuation τ sig (Elt F)) : kval1 V0 (no_index (Proc.devRef .tc main_arg3)) = V0 (Proc.devRef .tc main_arg3) := by
  unfold kval1
  simp only [main_part0_ops0]
  after_results_simp
theorem kval1_main_arg4 (V0 : Valuation τ sig (Elt F)) : kval1 V0 (no_index (Proc.devRef .tc main_arg4)) = V0 (Proc.devRef .tc main_arg4) := by
  unfold kval1
  simp only [main_part0_ops0]
  after_results_simp
theorem kval1_main_arg5 (V0 : Valuation τ sig (Elt F)) : kval1 V0 (no_index (Proc.devRef .tc main_arg5)) = V0 (Proc.devRef .tc main_arg5) := by
  unfold kval1
  simp only [main_part0_ops0]
  after_results_simp
theorem kval1_main_arg6 (V0 : Valuation τ sig (Elt F)) : kval1 V0 (no_index (Proc.devRef .tc main_arg6)) = V0 (Proc.devRef .tc main_arg6) := by
  unfold kval1
  simp only [main_part0_ops0]
  after_results_simp
set_option maxRecDepth 8192 in
set_option maxHeartbeats 2000000 in
theorem kval1_main_v26 (V0 : Valuation τ sig (Elt F)) : kval1 V0 (no_index (Proc.devRef .tc main_v26)) = kres_main_v26 V0 := by
  unfold kval1
  simp only [main_part0_ops0]
  after_results_simp
  rfl
set_option maxRecDepth 8192 in
set_option maxHeartbeats 2000000 in
theorem kval1_main_v39 (V0 : Valuation τ sig (Elt F)) : kval1 V0 (no_index (Proc.devRef .tc main_v39)) = kres_main_v39 V0 := by
  unfold kval1
  simp only [main_part0_ops0]
  after_results_simp
  rfl
set_option maxRecDepth 8192 in
set_option maxHeartbeats 2000000 in
theorem kval1_main_v45 (V0 : Valuation τ sig (Elt F)) : kval1 V0 (no_index (Proc.devRef .tc main_v45)) = broadcastInDim S2000000x1 ![0] bcast_S2000000_S2000000x1_0 (select (cmpi .slt (V0 (Proc.devRef .tc main_arg2)) (broadcastInDim S2000000 ![] bcast_S_S2000000 (constantI S_ 32 0#32))) (addi (V0 (Proc.devRef .tc main_arg2)) (broadcastInDim S2000000 ![] bcast_S_S2000000 (constantI S_ 32 100000#32))) (V0 (Proc.devRef .tc main_arg2))) := by
  unfold kval1
  simp only [main_part0_ops0]
  after_results_simp

/-- The buffer contents after the first two windows. -/
def kval2 (V0 : Valuation τ sig (Elt F)) : Valuation τ sig (Elt F) := after main_part1_ops0 (kval1 V0)
theorem kval2_main_arg0 (V0 : Valuation τ sig (Elt F)) : kval2 V0 (no_index (Proc.devRef .tc main_arg0)) = V0 (Proc.devRef .tc main_arg0) := by
  unfold kval2
  simp only [main_part1_ops0]
  after_results_simp
  exact kval1_main_arg0 V0
theorem kval2_main_arg1 (V0 : Valuation τ sig (Elt F)) : kval2 V0 (no_index (Proc.devRef .tc main_arg1)) = V0 (Proc.devRef .tc main_arg1) := by
  unfold kval2
  simp only [main_part1_ops0]
  after_results_simp
  exact kval1_main_arg1 V0
theorem kval2_main_arg2 (V0 : Valuation τ sig (Elt F)) : kval2 V0 (no_index (Proc.devRef .tc main_arg2)) = V0 (Proc.devRef .tc main_arg2) := by
  unfold kval2
  simp only [main_part1_ops0]
  after_results_simp
  exact kval1_main_arg2 V0
theorem kval2_main_arg3 (V0 : Valuation τ sig (Elt F)) : kval2 V0 (no_index (Proc.devRef .tc main_arg3)) = V0 (Proc.devRef .tc main_arg3) := by
  unfold kval2
  simp only [main_part1_ops0]
  after_results_simp
  exact kval1_main_arg3 V0
theorem kval2_main_arg4 (V0 : Valuation τ sig (Elt F)) : kval2 V0 (no_index (Proc.devRef .tc main_arg4)) = V0 (Proc.devRef .tc main_arg4) := by
  unfold kval2
  simp only [main_part1_ops0]
  after_results_simp
  exact kval1_main_arg4 V0
theorem kval2_main_arg5 (V0 : Valuation τ sig (Elt F)) : kval2 V0 (no_index (Proc.devRef .tc main_arg5)) = V0 (Proc.devRef .tc main_arg5) := by
  unfold kval2
  simp only [main_part1_ops0]
  after_results_simp
  exact kval1_main_arg5 V0
theorem kval2_main_arg6 (V0 : Valuation τ sig (Elt F)) : kval2 V0 (no_index (Proc.devRef .tc main_arg6)) = V0 (Proc.devRef .tc main_arg6) := by
  unfold kval2
  simp only [main_part1_ops0]
  after_results_simp
  exact kval1_main_arg6 V0
theorem kval2_main_v26 (V0 : Valuation τ sig (Elt F)) : kval2 V0 (no_index (Proc.devRef .tc main_v26)) = kres_main_v26 V0 := by
  unfold kval2
  simp only [main_part1_ops0]
  after_results_simp
  exact kval1_main_v26 V0
set_option maxRecDepth 8192 in
set_option maxHeartbeats 2000000 in
theorem kval2_main_v67 (V0 : Valuation τ sig (Elt F)) : kval2 V0 (no_index (Proc.devRef .tc main_v67)) = kres_main_v67 V0 := by
  unfold kval2
  simp only [main_part1_ops0]
  after_results_simp
  simp only [kval1_main_v26, kval1_main_arg3, kval1_main_v45, kval1_main_arg0, kval1_main_arg2] <;> rfl
set_option maxRecDepth 8192 in
set_option maxHeartbeats 2000000 in
theorem kval2_main_v81 (V0 : Valuation τ sig (Elt F)) : kval2 V0 (no_index (Proc.devRef .tc main_v81)) = addf (addf (V0 (Proc.devRef .tc main_arg0)) (kres_main_v39 V0)) (kres_main_v67 V0) := by
  unfold kval2
  simp only [main_part1_ops0]
  after_results_simp
  simp only [kval1_main_v26, kval1_main_arg3, kval1_main_v45, kval1_main_arg0, kval1_main_arg2, kval1_main_v39] <;> rfl
set_option maxRecDepth 8192 in
set_option maxHeartbeats 2000000 in
theorem kval2_main_v82 (V0 : Valuation τ sig (Elt F)) : kval2 V0 (no_index (Proc.devRef .tc main_v82)) = addf (addf (V0 (Proc.devRef .tc main_arg1)) (kres_main_v52 V0)) (kres_main_v80 V0) := by
  unfold kval2
  simp only [main_part1_ops0]
  after_results_simp
  simp only [kval1_main_v26, kval1_main_arg2, kval1_main_v39, kval1_main_arg3, kval1_main_v45, kval1_main_arg0, kval1_main_arg1] <;> rfl
set_option maxRecDepth 8192 in
set_option maxHeartbeats 2000000 in
theorem kval2_main_v95 (V0 : Valuation τ sig (Elt F)) : kval2 V0 (no_index (Proc.devRef .tc main_v95)) = Host.scatterAdd scatter_S100000x64_S2000000x1_S2000000x64_1_0_0_1 (broadcastInDim S100000x64 ![] bcast_S_S100000x64 (constant S_ .f32 0x00000000#32)) (broadcastInDim S2000000x1 ![0] bcast_S2000000_S2000000x1_0 (V0 (Proc.devRef .tc main_arg2))) (mulf (Host.gather gather_S50000x64_S2000000x1_S2000000x64_1_0_n_n_0_1_164 (kres_main_v80 V0) (broadcastInDim S2000000x1 ![0] bcast_S2000000_S2000000x1_0 (select (cmpi .slt (V0 (Proc.devRef .tc main_arg3)) (broadcastInDim S2000000 ![] bcast_S_S2000000 (constantI S_ 32 0#32))) (addi (V0 (Proc.devRef .tc main_arg3)) (broadcastInDim S2000000 ![] bcast_S_S2000000 (constantI S_ 32 50000#32))) (V0 (Proc.devRef .tc main_arg3))))) (broadcastInDim S2000000x64 ![0, 1] bcast_S2000000x1_S2000000x64_0_1 (broadcastInDim S2000000x1 ![0] bcast_S2000000_S2000000x1_0 (kres_main_v26 V0)))) := by
  unfold kval2
  simp only [main_part1_ops0]
  after_results_simp
  simp only [kval1_main_v26, kval1_main_arg3, kval1_main_arg2, kval1_main_v39] <;> rfl

/-- The buffer contents when the region is entered: after all three windows. -/
def kval3 (V0 : Valuation τ sig (Elt F)) : Valuation τ sig (Elt F) := after main_part2_ops0 (kval2 V0)
set_option maxRecDepth 8192 in
set_option maxHeartbeats 2000000 in
theorem kval3_main_v121 (V0 : Valuation τ sig (Elt F)) : kval3 V0 (no_index (Proc.devRef .tc main_v121)) = kres_main_v121 V0 := by
  unfold kval3
  simp only [main_part2_ops0]
  after_results_simp
  simp only [kval2_main_arg4, kval2_main_v95, kval2_main_v81] <;> rfl
set_option maxRecDepth 8192 in
set_option maxHeartbeats 2000000 in
theorem kval3_main_v128 (V0 : Valuation τ sig (Elt F)) : kval3 V0 (no_index (Proc.devRef .tc main_v128)) = kres_main_v128 V0 := by
  unfold kval3
  simp only [main_part2_ops0]
  after_results_simp
  simp only [kval2_main_arg5, kval2_main_v26, kval2_main_arg2, kval2_main_v67, kval2_main_arg3, kval2_main_v82] <;> rfl
set_option maxRecDepth 8192 in
set_option maxHeartbeats 2000000 in
theorem kval3_main_v135 (V0 : Valuation τ sig (Elt F)) : kval3 V0 (no_index (Proc.devRef .tc main_v135)) = kres_main_v135 V0 := by
  unfold kval3
  simp only [main_part2_ops0]
  after_results_simp
  simp only [kval2_main_arg6, kval2_main_v26, kval2_main_arg2, kval2_main_v67, kval2_main_arg3, kval2_main_v82] <;> rfl

end Cert.Score.KHead

namespace Cert.Score

open Idealize.ShloMosaic Idealize.ShloMosaic.TcCoe Idealize.SL.Sem Idealize.ShloMosaic.StableHlo

variable {F : FTy → Type} [FloatOps F]

/-! ## The two programs' head terms are the same terms

Each named term of the first program, over a valuation `Vk`, is the second program's term of the same name over
a valuation `Vr` that agrees with `Vk` on the seven arguments: innermost first, the two bodies are the same
operations over the same shapes (the two vocabularies name the same literals, and their side conditions are
propositions), applied to equal arguments. -/

section Terms

variable (Vk : Valuation Cert.KernelIdeal.τ Cert.KernelIdeal.sig (Elt F)) (Vr : Valuation Cert.ReferenceIdeal.τ Cert.ReferenceIdeal.sig (Elt F))
  (h0 : Vr (Proc.devRef .tc Cert.ReferenceIdeal.main_arg0) = Vk (Proc.devRef .tc Cert.KernelIdeal.main_arg0))
  (h1 : Vr (Proc.devRef .tc Cert.ReferenceIdeal.main_arg1) = Vk (Proc.devRef .tc Cert.KernelIdeal.main_arg1))
  (h2 : Vr (Proc.devRef .tc Cert.ReferenceIdeal.main_arg2) = Vk (Proc.devRef .tc Cert.KernelIdeal.main_arg2))
  (h3 : Vr (Proc.devRef .tc Cert.ReferenceIdeal.main_arg3) = Vk (Proc.devRef .tc Cert.KernelIdeal.main_arg3))
  (h4 : Vr (Proc.devRef .tc Cert.ReferenceIdeal.main_arg4) = Vk (Proc.devRef .tc Cert.KernelIdeal.main_arg4))
  (h5 : Vr (Proc.devRef .tc Cert.ReferenceIdeal.main_arg5) = Vk (Proc.devRef .tc Cert.KernelIdeal.main_arg5))
  (h6 : Vr (Proc.devRef .tc Cert.ReferenceIdeal.main_arg6) = Vk (Proc.devRef .tc Cert.KernelIdeal.main_arg6))
include h0 h1 h2 h3 h4 h5 h6

theorem kres_v0_eq : KHead.kres_main_v0 Vk = Cert.ReferenceIdeal.Value.res_main_v0 Vr := by
  unfold KHead.kres_main_v0 Cert.ReferenceIdeal.Value.res_main_v0
  rfl

theorem kres_v26_eq : KHead.kres_main_v26 Vk = Cert.ReferenceIdeal.Value.res_main_v26 Vr := by
  unfold KHead.kres_main_v26 Cert.ReferenceIdeal.Value.res_main_v26
  rw [h2, h3, kres_v0_eq Vk Vr h0 h1 h2 h3 h4 h5 h6]
  rfl

theorem kres_v39_eq : KHead.kres_main_v39 Vk = Cert.ReferenceIdeal.Value.res_main_v39 Vr := by
  unfold KHead.kres_main_v39 Cert.ReferenceIdeal.Value.res_main_v39
  rw [h1, h2, h3, kres_v26_eq Vk Vr h0 h1 h2 h3 h4 h5 h6]
  rfl

theorem kres_v52_eq : KHead.kres_main_v52 Vk = Cert.ReferenceIdeal.Value.res_main_v52 Vr := by
  unfold KHead.kres_main_v52 Cert.ReferenceIdeal.Value.res_main_v52
  rw [h0, h2, h3, kres_v26_eq Vk Vr h0 h1 h2 h3 h4 h5 h6]
  rfl

theorem kres_v67_eq : KHead.kres_main_v67 Vk = Cert.ReferenceIdeal.Value.res_main_v67 Vr := by
  unfold KHead.kres_main_v67 Cert.ReferenceIdeal.Value.res_main_v67
  rw [h2, h3, kres_v26_eq Vk Vr h0 h1 h2 h3 h4 h5 h6, kres_v52_eq Vk Vr h0 h1 h2 h3 h4 h5 h6]
  rfl

theorem kres_v80_eq : KHead.kres_main_v80 Vk = Cert.ReferenceIdeal.Value.res_main_v80 Vr := by
  unfold KHead.kres_main_v80 Cert.ReferenceIdeal.Value.res_main_v80
  rw [h2, h3, kres_v26_eq Vk Vr h0 h1 h2 h3 h4 h5 h6, kres_v39_eq Vk Vr h0 h1 h2 h3 h4 h5 h6]
  rfl

theorem kres_v114_eq : KHead.kres_main_v114 Vk = Cert.ReferenceIdeal.Value.res_main_v114 Vr := by
  unfold KHead.kres_main_v114 Cert.ReferenceIdeal.Value.res_main_v114
  rw [h1, h2, h3, kres_v26_eq Vk Vr h0 h1 h2 h3 h4 h5 h6, kres_v52_eq Vk Vr h0 h1 h2 h3 h4 h5 h6, kres_v67_eq Vk Vr h0 h1 h2 h3 h4 h5 h6, kres_v80_eq Vk Vr h0 h1 h2 h3 h4 h5 h6]
  rfl

theorem kres_v121_eq : KHead.kres_main_v121 Vk = Cert.ReferenceIdeal.Value.res_main_v121 Vr := by
  unfold KHead.kres_main_v121 Cert.ReferenceIdeal.Value.res_main_v121
  rw [h0, h2, h3, h4, kres_v26_eq Vk Vr h0 h1 h2 h3 h4 h5 h6, kres_v39_eq Vk Vr h0 h1 h2 h3 h4 h5 h6, kres_v67_eq Vk Vr h0 h1 h2 h3 h4 h5 h6, kres_v80_eq Vk Vr h0 h1 h2 h3 h4 h5 h6]
  rfl

theorem kres_v128_eq : KHead.kres_main_v128 Vk = Cert.ReferenceIdeal.Value.res_main_v128 Vr := by
  unfold KHead.kres_main_v128 Cert.ReferenceIdeal.Value.res_main_v128
  rw [h5, kres_v114_eq Vk Vr h0 h1 h2 h3 h4 h5 h6]
  rfl

theorem kres_v135_eq : KHead.kres_main_v135 Vk = Cert.ReferenceIdeal.Value.res_main_v135 Vr := by
  unfold KHead.kres_main_v135 Cert.ReferenceIdeal.Value.res_main_v135
  rw [h6, kres_v114_eq Vk Vr h0 h1 h2 h3 h4 h5 h6]
  rfl

end Terms

/-! ## The arrays the scoring region is entered with -/

section Head

variable (m : (ℓ : Loc Cert.KernelIdeal.nD Cert.KernelIdeal.τ Cert.KernelIdeal.sig) → Buf (Elt F) ℓ)
  (m' : (ℓ : Loc Cert.ReferenceIdeal.nD Cert.ReferenceIdeal.τ Cert.ReferenceIdeal.sig) → Buf (Elt F) ℓ)
  (c : Dev Cert.KernelIdeal.nD)

/-- The operations before the region are the three windows, one after the other. -/
theorem hostOps0_split : (Cert.KernelIdeal.Gen.hostOps0 : List (HloOp Cert.KernelIdeal.τ Cert.KernelIdeal.sig (Elt F)))
    = Cert.KernelIdeal.Gen.main_part0_ops0 ++ (Cert.KernelIdeal.Gen.main_part1_ops0 ++ Cert.KernelIdeal.Gen.main_part2_ops0) := rfl

/-- The contents the region is entered with are the launch contents read through the three windows. -/
theorem V0_eq : Cert.KernelIdeal.Gen.V0 m c = KHead.kval3 (fun b => m (c, b)) := by
  show after (List.flatten [Cert.KernelIdeal.Gen.hostOps0]) (fun b => m (c, b)) = _
  rw [List.flatten_cons, List.flatten_nil, List.append_nil, hostOps0_split, after_append, after_append]
  rfl

variable (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
include hagree

/-- `u`: the first program enters its scoring region with the second program's head term for `u`. -/
theorem head_u : Cert.KernelIdeal.Gen.V (F := F) m c Cert.KernelIdeal.main_v121
    = Cert.ReferenceIdeal.Value.res_main_v121 (F := F) (launchContents m' c) := by
  obtain ⟨h0, h1, h2, h3, h4, h5, h6⟩ := hagree
  exact (congrFun (V0_eq m c) (Proc.devRef .tc Cert.KernelIdeal.main_v121)).trans
    ((KHead.kval3_main_v121 _).trans (kres_v121_eq _ _ h0 h1 h2 h3 h4 h5 h6))

/-- `p`: likewise for the second 4096×64 array. -/
theorem head_p : Cert.KernelIdeal.Gen.V (F := F) m c Cert.KernelIdeal.main_v128
    = Cert.ReferenceIdeal.Value.res_main_v128 (F := F) (launchContents m' c) := by
  obtain ⟨h0, h1, h2, h3, h4, h5, h6⟩ := hagree
  exact (congrFun (V0_eq m c) (Proc.devRef .tc Cert.KernelIdeal.main_v128)).trans
    ((KHead.kval3_main_v128 _).trans (kres_v128_eq _ _ h0 h1 h2 h3 h4 h5 h6))

/-- `q`: likewise for the 4096×50×64 array. -/
theorem head_q : Cert.KernelIdeal.Gen.V (F := F) m c Cert.KernelIdeal.main_v135
    = Cert.ReferenceIdeal.Value.res_main_v135 (F := F) (launchContents m' c) := by
  obtain ⟨h0, h1, h2, h3, h4, h5, h6⟩ := hagree
  exact (congrFun (V0_eq m c) (Proc.devRef .tc Cert.KernelIdeal.main_v135)).trans
    ((KHead.kval3_main_v135 _).trans (kres_v135_eq _ _ h0 h1 h2 h3 h4 h5 h6))

end Head

end Cert.Score

end
-- ==== Proof.lean ====
/-
  The certificate: a blockwise scoring kernel against its plain reference, over the extended reals.

  Both programs start with the same graph propagation and the same three gathers, which produce a batch of 4096 user
  vectors `u`, 4096 positive-item vectors `p` and 4096 × 50 negative-item vectors `q`, each of 64 coordinates.  From
  these both compute the positive scores (row by row dot products of `u` and `p`), the negative scores (each row of `u`
  against its 50 rows of `q`) and a regulariser, one half of the total of all squares of `u`, `p` and `q` divided by 4096.
  The reference totals the squares array by array.  The kernel works in 16 blocks of 256 batch entries: each block
  writes its own rows of the two score arrays, totals its own squares — `u`'s, then `p`'s, then the negatives in five
  groups of ten — into one slot of a small array, and the host adds the 16 slots afterwards.

  The proof follows that description.  `Body` reads one block entry by entry; `Blocks` shows that the 16 blocks written
  back tile the two score arrays and the array of block totals, so each ends holding one whole-array function of
  `u`, `p`, `q`; `Tail` reads the host's final sum, product and quotient; `SumLaw` is the one law that joins the two
  sides: the 16 block totals add up to the total of all squares, because addition of extended reals is commutative and
  associative (no entry needs to be finite); `RefRead` reads the reference's three results entry by entry; `Head` shows
  that the two programs enter their scoring stages with the same `u`, `p`, `q` when they are started on the same
  arguments.  The word-level kernel and its idealization differ by no rewrite, so nothing is owed for the idealization.
-/
import proofs.«148021_j6064493822026_2_alg».proof.Defs
import proofs.«148021_j6064493822026_2_alg».proof.Proof.Gen.Kernel
import proofs.«148021_j6064493822026_2_alg».proof.Proof.Gen.Kernel.Skeleton
import proofs.«148021_j6064493822026_2_alg».proof.Proof.Gen.Kernel.Launch
import proofs.«148021_j6064493822026_2_alg».proof.Proof.Gen.Kernel.Points
import proofs.«148021_j6064493822026_2_alg».proof.Proof.Gen.Kernel.Frame
import proofs.«148021_j6064493822026_2_alg».proof.Proof.Gen.KernelIdeal
import proofs.«148021_j6064493822026_2_alg».proof.Proof.Gen.KernelIdeal.Skeleton
import proofs.«148021_j6064493822026_2_alg».proof.Proof.Gen.KernelIdeal.Launch
import proofs.«148021_j6064493822026_2_alg».proof.Proof.Gen.KernelIdeal.Points
import proofs.«148021_j6064493822026_2_alg».proof.Proof.Gen.KernelIdeal.Frame
import proofs.«148021_j6064493822026_2_alg».proof.Proof.Gen.ReferenceIdeal
import proofs.«148021_j6064493822026_2_alg».proof.Proof.Gen.ReferenceIdeal.Run
import proofs.«148021_j6064493822026_2_alg».proof.Proof.Gen.Pre_finite_inputs
import proofs.«148021_j6064493822026_2_alg».proof.Proof.KernelRun
import proofs.«148021_j6064493822026_2_alg».proof.Proof.RefRead
import proofs.«148021_j6064493822026_2_alg».proof.Proof.Head
import Idealize.ShloMosaic.Adequacy
import Idealize.ShloMosaic.Init

set_option maxRecDepth 16384

noncomputable section

namespace Cert.Proof

open Idealize.ShloMosaic Idealize.SL.Sem

/-- The word-level kernel runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the results forgotten. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The two idealized programs, started on the same arguments, end with the same three results: the positive scores,
    the negative scores and the regulariser of the arrays `u`, `p`, `q` both enter their scoring stages with. -/
theorem algebraic : Cert.algebraic_KernelIdeal_ReferenceIdeal := by
  intro m ρ m' ρ' _ hagree
  refine ⟨fun c => Cert.Score.posScore (Cert.KernelIdeal.Gen.V m c Cert.KernelIdeal.main_v121) (Cert.KernelIdeal.Gen.V m c Cert.KernelIdeal.main_v128),
    fun c => Cert.Score.negScore (Cert.KernelIdeal.Gen.V m c Cert.KernelIdeal.main_v121) (Cert.KernelIdeal.Gen.V m c Cert.KernelIdeal.main_v135),
    fun c => Cert.Score.regLoss (Cert.KernelIdeal.Gen.V m c Cert.KernelIdeal.main_v121) (Cert.KernelIdeal.Gen.V m c Cert.KernelIdeal.main_v128)
      (Cert.KernelIdeal.Gen.V m c Cert.KernelIdeal.main_v135),
    Cert.Score.Run.run m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.Score.Ref.ref_pos]
    show _ = Cert.Score.posScore (Cert.KernelIdeal.Gen.V m c Cert.KernelIdeal.main_v121) (Cert.KernelIdeal.Gen.V m c Cert.KernelIdeal.main_v128)
    rw [Cert.Score.head_u m m' c (hagree c), Cert.Score.head_p m m' c (hagree c)]
  · rw [(h c).2.1, Cert.Score.Ref.ref_neg]
    show _ = Cert.Score.negScore (Cert.KernelIdeal.Gen.V m c Cert.KernelIdeal.main_v121) (Cert.KernelIdeal.Gen.V m c Cert.KernelIdeal.main_v135)
    rw [Cert.Score.head_u m m' c (hagree c), Cert.Score.head_q m m' c (hagree c)]
  · rw [(h c).2.2.1, Cert.Score.Ref.ref_reg]
    show _ = Cert.Score.regLoss (Cert.KernelIdeal.Gen.V m c Cert.KernelIdeal.main_v121) (Cert.KernelIdeal.Gen.V m c Cert.KernelIdeal.main_v128)
      (Cert.KernelIdeal.Gen.V m c Cert.KernelIdeal.main_v135)
    rw [Cert.Score.head_u m m' c (hagree c), Cert.Score.head_p m m' c (hagree c), Cert.Score.head_q m m' c (hagree c)]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
